-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S512x512 : Shape := ⟨2, ![512, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S8192x512 .f32) (main_arg1 : IVec S8192 32) (main_arg2 : FVec F S512x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S8192x512 : Shape := ⟨2, ![8192, 512]⟩
abbrev S8192 : Shape := ⟨1, ![8192]⟩
abbrev S512x512 : Shape := ⟨2, ![512, 512]⟩
abbrev S_ : Shape := ⟨0, ![]⟩
abbrev S8192x1 : Shape := ⟨2, ![8192, 1]⟩
abbrev S1x8192 : Shape := ⟨2, ![1, 8192]⟩
abbrev S512x1 : Shape := ⟨2, ![512, 1]⟩
abbrev S1x512 : Shape := ⟨2, ![1, 512]⟩
abbrev S512 : Shape := ⟨1, ![512]⟩

abbrev nBuf : Space → Nat
  | .hbm => 43
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S512x512, .f32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x512, .f32⟩
  | .hbm, ⟨17, _⟩ => ⟨S_, .f32⟩
  | .hbm, ⟨18, _⟩ => ⟨S8192, .f32⟩
  | .hbm, ⟨19, _⟩ => ⟨S1x8192, .f32⟩
  | .hbm, ⟨20, _⟩ => ⟨S8192x1, .i32⟩
  | .hbm, ⟨21, _⟩ => ⟨S1x8192, .i32⟩
  | .hbm, ⟨22, _⟩ => ⟨S8192x1, .f32⟩
  | .hbm, ⟨23, _⟩ => ⟨S8192x1, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8192, .i1⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S512x1, .i32⟩
  | .local _ .vmem, ⟨9, _⟩ => ⟨S512x1, .i32⟩
  | .local _ .vmem, ⟨10, _⟩ => ⟨S1x512, .i32⟩
  | .local _ .vmem, ⟨11, _⟩ => ⟨S1x512, .i32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v48 : BitVec 1 := Scalar.cmpi .eq arg1 c15_i32
  let v49 : BitVec 32 := Scalar.extui v48
  let c0_i32_26 : BitVec 32 := 0#32
  let v50 : BitVec 1 := Scalar.cmpi .ne v49 c0_i32_26
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x512_S8192_d1 : S8192x512.ReducesTo [1] S8192
  h_S_ : 0 < S_.numel
  shapeCasts_S8192_S1x8192 : S8192.ShapeCasts S1x8192
  shapeCasts_S8192_S8192x1 : S8192.ShapeCasts S8192x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  shapeCasts_S512x512_S512x512 : S512x512.ShapeCasts S512x512
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  shapeCasts_S8192x1_S8192 : S8192x1.ShapeCasts S8192
  reducesTo_S8192_S_d0 : S8192.ReducesTo [0] S_
  gather_S512x512_S8192x1_S8192x512_1_0_n_n_0_1_1512_wf : GatherDims.WF S512x512 S8192x1 S8192x512 [1] [0] [] [0] [] 1 ![1, 512]
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .i32 = 32 ∨ (Rect.block (s := S8192x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .i32 = 32 ∨ (Rect.block (s := S1x8192) S1x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .f32 = 32 ∨ (Rect.block (s := S8192x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S8192x1.size a
  hwx0_7 : ∀ i : grid0.Coords, EltTy.bits .f32 = 32 ∨ (Rect.block (s := S8192x1) S512x1.size (cc0_transform_7 i) (hinb0_7 i)).WholeWords (EltTy.packing .f32)

variable [Facts₀]

def gather_S512x512_S8192x1_S8192x512_1_0_n_n_0_1_1512 : GatherDims S512x512 S8192x1 S8192x512 where
  offsetDims := [1]
  collapsedSliceDims := [0]
  operandBatchingDims := []
  startIndicesBatchingDims := []
  startIndexMap := [0]
  indexVectorDim := 1
  sliceSizes := ![1, 512]
  wf := gather_S512x512_S8192x1_S8192x512_1_0_n_n_0_1_1512_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_0) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_1) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S512x512 : Shape := ⟨2, ![512, 512]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 68
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S512x512, .f32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x512, .f32⟩
  | .hbm, ⟨17, _⟩ => ⟨S_, .f32⟩
  | .hbm, ⟨18, _⟩ => ⟨S8192, .f32⟩
  | .hbm, ⟨19, _⟩ => ⟨S1x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S512x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S_, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S8192, .i1⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_cst_6 : Ref sig .tc := ⟨.hbm, 45, rfl⟩
abbrev main_call2_v0 : Ref sig .tc := ⟨.hbm, 46, rfl⟩
abbrev main_call2_v1 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_12 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x512_S8192_d1 : S8192x512.ReducesTo [1] S8192
  h_S_ : 0 < S_.numel
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  gather_S512x512_S8192x1_S8192x512_1_0_n_n_0_1_1512_wf : GatherDims.WF S512x512 S8192x1 S8192x512 [1] [0] [] [0] [] 1 ![1, 512]
  dot_S8192x512_S512x8192_S8192x8192_1_0_0_1_n_n_wf : DotDims.WF S8192x512 S512x8192 S8192x8192 [1] [0] [0] [1] [] []

variable [Facts₀]

def gather_S512x512_S8192x1_S8192x512_1_0_n_n_0_1_1512 : GatherDims S512x512 S8192x1 S8192x512 where
  offsetDims := [1]
  collapsedSliceDims := [0]
  operandBatchingDims := []
  startIndicesBatchingDims := []
  startIndexMap := [0]
  indexVectorDim := 1
  sliceSizes := ![1, 512]
  wf := gather_S512x512_S8192x1_S8192x512_1_0_n_n_0_1_1512_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.RefRun.lean ====
/-
  The reference program's run, read back by hand.

  The program is a straight line of 65 host operations (a called function's operations standing in its call's place).
  Its run is stated through the fold `after` of the operations' results. The line is cut into four stretches, each
  read over an arbitrary starting valuation: the gathered centre rows and the two squared-norm stages (operations
  1-16), the clamped distance matrix (17-31), the two masked matrices with their row-wise maximum and minimum (32-48),
  and the two scalar tails (49-65). Each stretch's result is the matching stage of the reference read one operation
  at a time, given the stages the stretches before it left; composed, the two result buffers end at the last two
  stages of the arguments' launch contents, and the arguments are unchanged.
-/
import proofs.«120518_j15298673508622_1_alg».proof.Proof.Gen.ReferenceIdeal
import proofs.«120518_j15298673508622_1_alg».proof.Proof.ReadP
import Idealize.ShloMosaic.Lib.StableHlo.Run
import Idealize.ShloMosaic.Lib.Pipeline.Regions
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

variable {F : FTy → Type} [FloatOps F]

/-- The program's 65 operations, in order (a called function's operations stand in its call's place). -/
abbrev ops : List (HloOp τ sig (Elt F)) :=
  [ nullary main_c (constantI S_ 32 0#32),
    unary main_c main_v0 (broadcastInDim S8192 ![] bcast_S_S8192 : (⟨S_, .i32⟩ : BufTy).Contents (Elt F) → (⟨S8192, .i32⟩ : BufTy).Contents (Elt F)),
    binary main_arg1 main_v0 main_v1 (cmpi .slt : (⟨S8192, .i32⟩ : BufTy).Contents (Elt F) → (⟨S8192, .i32⟩ : BufTy).Contents (Elt F) → (⟨S8192, .i1⟩ : BufTy).Contents (Elt F)),
    nullary main_c_0 (constantI S_ 32 512#32),
    unary main_c_0 main_v2 (broadcastInDim S8192 ![] bcast_S_S8192 : (⟨S_, .i32⟩ : BufTy).Contents (Elt F) → (⟨S8192, .i32⟩ : BufTy).Contents (Elt F)),
    binary main_arg1 main_v2 main_v3 (addi : (⟨S8192, .i32⟩ : BufTy).Contents (Elt F) → (⟨S8192, .i32⟩ : BufTy).Contents (Elt F) → (⟨S8192, .i32⟩ : BufTy).Contents (Elt F)),
    ternary main_v1 main_v3 main_arg1 main_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v4 main_v5 (broadcastInDim S8192x1 ![0] bcast_S8192_S8192x1_0 : (⟨S8192, .i32⟩ : BufTy).Contents (Elt F) → (⟨S8192x1, .i32⟩ : BufTy).Contents (Elt F)),
    binary main_arg2 main_v5 main_v6 ((fun x i => Host.gather gather_S512x512_S8192x1_S8192x512_1_0_n_n_0_1_1512 x i) : (⟨S512x512, .f32⟩ : BufTy).Contents (Elt F) → (⟨S8192x1, .i32⟩ : BufTy).Contents (Elt F) → (⟨S8192x512, .f32⟩ : BufTy).Contents (Elt F)),
    binary main_arg0 main_arg0 main_v7 (mulf : (⟨S8192x512, .f32⟩ : BufTy).Contents (Elt F) → (⟨S8192x512, .f32⟩ : BufTy).Contents (Elt F) → (⟨S8192x512, .f32⟩ : BufTy).Contents (Elt F)),
    nullary main_cst (constant S_ .f32 0x00000000#32),
    binary main_v7 main_cst main_v8 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    unary main_v8 main_v9 (broadcastInDim S8192x1 ![0] bcast_S8192_S8192x1_0 : (⟨S8192, .f32⟩ : BufTy).Contents (Elt F) → (⟨S8192x1, .f32⟩ : BufTy).Contents (Elt F)),
    binary main_v6 main_v6 main_v10 (mulf : (⟨S8192x512, .f32⟩ : BufTy).Contents (Elt F) → (⟨S8192x512, .f32⟩ : BufTy).Contents (Elt F) → (⟨S8192x512, .f32⟩ : BufTy).Contents (Elt F)),
    nullary main_cst_1 (constant S_ .f32 0x00000000#32),
    binary main_v10 main_cst_1 main_v11 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    unary main_v11 main_v12 (broadcastInDim S1x8192 ![1] bcast_S8192_S1x8192_1 : (⟨S8192, .f32⟩ : BufTy).Contents (Elt F) → (⟨S1x8192, .f32⟩ : BufTy).Contents (Elt F)),
    unary main_v9 main_v13 (broadcastInDim S8192x8192 ![0, 1] bcast_S8192x1_S8192x8192_0_1 : (⟨S8192x1, .f32⟩ : BufTy).Contents (Elt F) → (⟨S8192x8192, .f32⟩ : BufTy).Contents (Elt F)),
    unary main_v12 main_v14 (broadcastInDim S8192x8192 ![0, 1] bcast_S1x8192_S8192x8192_0_1 : (⟨S1x8192, .f32⟩ : BufTy).Contents (Elt F) → (⟨S8192x8192, .f32⟩ : BufTy).Contents (Elt F)),
    binary main_v13 main_v14 main_v15 (addf : (⟨S8192x8192, .f32⟩ : BufTy).Contents (Elt F) → (⟨S8192x8192, .f32⟩ : BufTy).Contents (Elt F) → (⟨S8192x8192, .f32⟩ : BufTy).Contents (Elt F)),
    unary main_v6 main_v16 ((transpose S512x8192 [1, 0] · transposes_S8192x512_S512x8192_1_0) : (⟨S8192x512, .f32⟩ : BufTy).Contents (Elt F) → (⟨S512x8192, .f32⟩ : BufTy).Contents (Elt F)),
    binary main_arg0 main_v16 main_v17 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    nullary main_cst_2 (constant S_ .f32 0x40000000#32),
    unary main_cst_2 main_v18 (broadcastInDim S8192x8192 ![] bcast_S_S8192x8192 : (⟨S_, .f32⟩ : BufTy).Contents (Elt F) → (⟨S8192x8192, .f32⟩ : BufTy).Contents (Elt F)),
    binary main_v18 main_v17 main_v19 (mulf : (⟨S8192x8192, .f32⟩ : BufTy).Contents (Elt F) → (⟨S8192x8192, .f32⟩ : BufTy).Contents (Elt F) → (⟨S8192x8192, .f32⟩ : BufTy).Contents (Elt F)),
    binary main_v15 main_v19 main_v20 (subf : (⟨S8192x8192, .f32⟩ : BufTy).Contents (Elt F) → (⟨S8192x8192, .f32⟩ : BufTy).Contents (Elt F) → (⟨S8192x8192, .f32⟩ : BufTy).Contents (Elt F)),
    nullary main_cst_3 (constant S_ .f32 0x2B8CBCCC#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.binary (TRef.of (T := ⟨S8192x8192, .f32⟩) main_call0_v1) (TRef.of (T := ⟨S8192x8192, .f32⟩) main_v20) (TRef.of (T := ⟨S8192x8192, .f32⟩) main_v21) maximumf,
    unary main_v21 main_v22 (Host.sqrt : (⟨S8192x8192, .f32⟩ : BufTy).Contents (Elt F) → (⟨S8192x8192, .f32⟩ : BufTy).Contents (Elt F)),
    unary main_arg1 main_v23 (broadcastInDim S8192x1 ![0] bcast_S8192_S8192x1_0 : (⟨S8192, .i32⟩ : BufTy).Contents (Elt F) → (⟨S8192x1, .i32⟩ : BufTy).Contents (Elt F)),
    unary main_arg1 main_v24 (broadcastInDim S1x8192 ![1] bcast_S8192_S1x8192_1 : (⟨S8192, .i32⟩ : BufTy).Contents (Elt F) → (⟨S1x8192, .i32⟩ : BufTy).Contents (Elt F)),
    unary main_v23 main_v25 (broadcastInDim S8192x8192 ![0, 1] bcast_S8192x1_S8192x8192_0_1 : (⟨S8192x1, .i32⟩ : BufTy).Contents (Elt F) → (⟨S8192x8192, .i32⟩ : BufTy).Contents (Elt F)),
    unary main_v24 main_v26 (broadcastInDim S8192x8192 ![0, 1] bcast_S1x8192_S8192x8192_0_1 : (⟨S1x8192, .i32⟩ : BufTy).Contents (Elt F) → (⟨S8192x8192, .i32⟩ : BufTy).Contents (Elt F)),
    binary main_v25 main_v26 main_v27 (cmpi .eq : (⟨S8192x8192, .i32⟩ : BufTy).Contents (Elt F) → (⟨S8192x8192, .i32⟩ : BufTy).Contents (Elt F) → (⟨S8192x8192, .i1⟩ : BufTy).Contents (Elt F)),
    nullary main_cst_4 (constant S_ .f32 0xFF800000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v27) (TRef.of (T := ⟨S8192x8192, .f32⟩) main_v22) (TRef.of (T := ⟨S8192x8192, .f32⟩) main_call1_v1) (TRef.of (T := ⟨S8192x8192, .f32⟩) main_v28) select,
    nullary main_cst_5 (constant S_ .f32 0xFF800000#32),
    binary main_v28 main_cst_5 main_v29 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_6 (constant S_ .f32 0x7F800000#32),
    TRef.unary (TRef.of (T := ⟨S_, .f32⟩) main_cst_6) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v27) (TRef.of (T := ⟨S8192x8192, .f32⟩) main_call2_v1) (TRef.of (T := ⟨S8192x8192, .f32⟩) main_v22) (TRef.of (T := ⟨S8192x8192, .f32⟩) main_v30) select,
    nullary main_cst_7 (constant S_ .f32 0x7F800000#32),
    binary main_v30 main_cst_7 main_v31 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v29 main_v31 main_v32 (subf : (⟨S8192, .f32⟩ : BufTy).Contents (Elt F) → (⟨S8192, .f32⟩ : BufTy).Contents (Elt F) → (⟨S8192, .f32⟩ : BufTy).Contents (Elt F)),
    nullary main_cst_8 (constant S_ .f32 0x3F800000#32),
    unary main_cst_8 main_v33 (broadcastInDim S8192 ![] bcast_S_S8192 : (⟨S_, .f32⟩ : BufTy).Contents (Elt F) → (⟨S8192, .f32⟩ : BufTy).Contents (Elt F)),
    binary main_v32 main_v33 main_v34 (addf : (⟨S8192, .f32⟩ : BufTy).Contents (Elt F) → (⟨S8192, .f32⟩ : BufTy).Contents (Elt F) → (⟨S8192, .f32⟩ : BufTy).Contents (Elt F)),
    nullary main_cst_9 (constant S_ .f32 0x00000000#32),
    unary main_cst_9 main_v35 (broadcastInDim S8192 ![] bcast_S_S8192 : (⟨S_, .f32⟩ : BufTy).Contents (Elt F) → (⟨S8192, .f32⟩ : BufTy).Contents (Elt F)),
    binary main_v35 main_v34 main_v36 (maximumf : (⟨S8192, .f32⟩ : BufTy).Contents (Elt F) → (⟨S8192, .f32⟩ : BufTy).Contents (Elt F) → (⟨S8192, .f32⟩ : BufTy).Contents (Elt F)),
    nullary main_cst_10 (constant S_ .f32 0x00000000#32),
    binary main_v36 main_cst_10 main_v37 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_11 (constant S_ .f32 0x46000000#32),
    binary main_v37 main_cst_11 main_v38 (Host.divf : (⟨S_, .f32⟩ : BufTy).Contents (Elt F) → (⟨S_, .f32⟩ : BufTy).Contents (Elt F) → (⟨S_, .f32⟩ : BufTy).Contents (Elt F)),
    binary main_v31 main_v29 main_v39 (cmpf .ogt : (⟨S8192, .f32⟩ : BufTy).Contents (Elt F) → (⟨S8192, .f32⟩ : BufTy).Contents (Elt F) → (⟨S8192, .i1⟩ : BufTy).Contents (Elt F)),
    unary main_v39 main_v40 (uitofp .f32 : (⟨S8192, .i1⟩ : BufTy).Contents (Elt F) → (⟨S8192, .f32⟩ : BufTy).Contents (Elt F)),
    nullary main_cst_12 (constant S_ .f32 0x00000000#32),
    binary main_v40 main_cst_12 main_v41 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_13 (constant S_ .f32 0x46000000#32),
    binary main_v41 main_cst_13 main_v42 (Host.divf : (⟨S_, .f32⟩ : BufTy).Contents (Elt F) → (⟨S_, .f32⟩ : BufTy).Contents (Elt F) → (⟨S_, .f32⟩ : BufTy).Contents (Elt F)) ]

/-- Operations 1-16: the gathered centre rows and the two squared-norm stages. -/
abbrev c1 : List (HloOp τ sig (Elt F)) :=
  [ nullary main_c (constantI S_ 32 0#32),
    unary main_c main_v0 (broadcastInDim S8192 ![] bcast_S_S8192 : (⟨S_, .i32⟩ : BufTy).Contents (Elt F) → (⟨S8192, .i32⟩ : BufTy).Contents (Elt F)),
    binary main_arg1 main_v0 main_v1 (cmpi .slt : (⟨S8192, .i32⟩ : BufTy).Contents (Elt F) → (⟨S8192, .i32⟩ : BufTy).Contents (Elt F) → (⟨S8192, .i1⟩ : BufTy).Contents (Elt F)),
    nullary main_c_0 (constantI S_ 32 512#32),
    unary main_c_0 main_v2 (broadcastInDim S8192 ![] bcast_S_S8192 : (⟨S_, .i32⟩ : BufTy).Contents (Elt F) → (⟨S8192, .i32⟩ : BufTy).Contents (Elt F)),
    binary main_arg1 main_v2 main_v3 (addi : (⟨S8192, .i32⟩ : BufTy).Contents (Elt F) → (⟨S8192, .i32⟩ : BufTy).Contents (Elt F) → (⟨S8192, .i32⟩ : BufTy).Contents (Elt F)),
    ternary main_v1 main_v3 main_arg1 main_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v4 main_v5 (broadcastInDim S8192x1 ![0] bcast_S8192_S8192x1_0 : (⟨S8192, .i32⟩ : BufTy).Contents (Elt F) → (⟨S8192x1, .i32⟩ : BufTy).Contents (Elt F)),
    binary main_arg2 main_v5 main_v6 ((fun x i => Host.gather gather_S512x512_S8192x1_S8192x512_1_0_n_n_0_1_1512 x i) : (⟨S512x512, .f32⟩ : BufTy).Contents (Elt F) → (⟨S8192x1, .i32⟩ : BufTy).Contents (Elt F) → (⟨S8192x512, .f32⟩ : BufTy).Contents (Elt F)),
    binary main_arg0 main_arg0 main_v7 (mulf : (⟨S8192x512, .f32⟩ : BufTy).Contents (Elt F) → (⟨S8192x512, .f32⟩ : BufTy).Contents (Elt F) → (⟨S8192x512, .f32⟩ : BufTy).Contents (Elt F)),
    nullary main_cst (constant S_ .f32 0x00000000#32),
    binary main_v7 main_cst main_v8 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    unary main_v8 main_v9 (broadcastInDim S8192x1 ![0] bcast_S8192_S8192x1_0 : (⟨S8192, .f32⟩ : BufTy).Contents (Elt F) → (⟨S8192x1, .f32⟩ : BufTy).Contents (Elt F)),
    binary main_v6 main_v6 main_v10 (mulf : (⟨S8192x512, .f32⟩ : BufTy).Contents (Elt F) → (⟨S8192x512, .f32⟩ : BufTy).Contents (Elt F) → (⟨S8192x512, .f32⟩ : BufTy).Contents (Elt F)),
    nullary main_cst_1 (constant S_ .f32 0x00000000#32),
    binary main_v10 main_cst_1 main_v11 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)) ]

/-- Operations 17-31: the clamped distance matrix. -/
abbrev c2 : List (HloOp τ sig (Elt F)) :=
  [ unary main_v11 main_v12 (broadcastInDim S1x8192 ![1] bcast_S8192_S1x8192_1 : (⟨S8192, .f32⟩ : BufTy).Contents (Elt F) → (⟨S1x8192, .f32⟩ : BufTy).Contents (Elt F)),
    unary main_v9 main_v13 (broadcastInDim S8192x8192 ![0, 1] bcast_S8192x1_S8192x8192_0_1 : (⟨S8192x1, .f32⟩ : BufTy).Contents (Elt F) → (⟨S8192x8192, .f32⟩ : BufTy).Contents (Elt F)),
    unary main_v12 main_v14 (broadcastInDim S8192x8192 ![0, 1] bcast_S1x8192_S8192x8192_0_1 : (⟨S1x8192, .f32⟩ : BufTy).Contents (Elt F) → (⟨S8192x8192, .f32⟩ : BufTy).Contents (Elt F)),
    binary main_v13 main_v14 main_v15 (addf : (⟨S8192x8192, .f32⟩ : BufTy).Contents (Elt F) → (⟨S8192x8192, .f32⟩ : BufTy).Contents (Elt F) → (⟨S8192x8192, .f32⟩ : BufTy).Contents (Elt F)),
    unary main_v6 main_v16 ((transpose S512x8192 [1, 0] · transposes_S8192x512_S512x8192_1_0) : (⟨S8192x512, .f32⟩ : BufTy).Contents (Elt F) → (⟨S512x8192, .f32⟩ : BufTy).Contents (Elt F)),
    binary main_arg0 main_v16 main_v17 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    nullary main_cst_2 (constant S_ .f32 0x40000000#32),
    unary main_cst_2 main_v18 (broadcastInDim S8192x8192 ![] bcast_S_S8192x8192 : (⟨S_, .f32⟩ : BufTy).Contents (Elt F) → (⟨S8192x8192, .f32⟩ : BufTy).Contents (Elt F)),
    binary main_v18 main_v17 main_v19 (mulf : (⟨S8192x8192, .f32⟩ : BufTy).Contents (Elt F) → (⟨S8192x8192, .f32⟩ : BufTy).Contents (Elt F) → (⟨S8192x8192, .f32⟩ : BufTy).Contents (Elt F)),
    binary main_v15 main_v19 main_v20 (subf : (⟨S8192x8192, .f32⟩ : BufTy).Contents (Elt F) → (⟨S8192x8192, .f32⟩ : BufTy).Contents (Elt F) → (⟨S8192x8192, .f32⟩ : BufTy).Contents (Elt F)),
    nullary main_cst_3 (constant S_ .f32 0x2B8CBCCC#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.binary (TRef.of (T := ⟨S8192x8192, .f32⟩) main_call0_v1) (TRef.of (T := ⟨S8192x8192, .f32⟩) main_v20) (TRef.of (T := ⟨S8192x8192, .f32⟩) main_v21) maximumf,
    unary main_v21 main_v22 (Host.sqrt : (⟨S8192x8192, .f32⟩ : BufTy).Contents (Elt F) → (⟨S8192x8192, .f32⟩ : BufTy).Contents (Elt F)) ]

/-- Operations 32-48: the label mask, the two masked matrices and their row-wise maximum and minimum. -/
abbrev c3 : List (HloOp τ sig (Elt F)) :=
  [ unary main_arg1 main_v23 (broadcastInDim S8192x1 ![0] bcast_S8192_S8192x1_0 : (⟨S8192, .i32⟩ : BufTy).Contents (Elt F) → (⟨S8192x1, .i32⟩ : BufTy).Contents (Elt F)),
    unary main_arg1 main_v24 (broadcastInDim S1x8192 ![1] bcast_S8192_S1x8192_1 : (⟨S8192, .i32⟩ : BufTy).Contents (Elt F) → (⟨S1x8192, .i32⟩ : BufTy).Contents (Elt F)),
    unary main_v23 main_v25 (broadcastInDim S8192x8192 ![0, 1] bcast_S8192x1_S8192x8192_0_1 : (⟨S8192x1, .i32⟩ : BufTy).Contents (Elt F) → (⟨S8192x8192, .i32⟩ : BufTy).Contents (Elt F)),
    unary main_v24 main_v26 (broadcastInDim S8192x8192 ![0, 1] bcast_S1x8192_S8192x8192_0_1 : (⟨S1x8192, .i32⟩ : BufTy).Contents (Elt F) → (⟨S8192x8192, .i32⟩ : BufTy).Contents (Elt F)),
    binary main_v25 main_v26 main_v27 (cmpi .eq : (⟨S8192x8192, .i32⟩ : BufTy).Contents (Elt F) → (⟨S8192x8192, .i32⟩ : BufTy).Contents (Elt F) → (⟨S8192x8192, .i1⟩ : BufTy).Contents (Elt F)),
    nullary main_cst_4 (constant S_ .f32 0xFF800000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v27) (TRef.of (T := ⟨S8192x8192, .f32⟩) main_v22) (TRef.of (T := ⟨S8192x8192, .f32⟩) main_call1_v1) (TRef.of (T := ⟨S8192x8192, .f32⟩) main_v28) select,
    nullary main_cst_5 (constant S_ .f32 0xFF800000#32),
    binary main_v28 main_cst_5 main_v29 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_6 (constant S_ .f32 0x7F800000#32),
    TRef.unary (TRef.of (T := ⟨S_, .f32⟩) main_cst_6) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v27) (TRef.of (T := ⟨S8192x8192, .f32⟩) main_call2_v1) (TRef.of (T := ⟨S8192x8192, .f32⟩) main_v22) (TRef.of (T := ⟨S8192x8192, .f32⟩) main_v30) select,
    nullary main_cst_7 (constant S_ .f32 0x7F800000#32),
    binary main_v30 main_cst_7 main_v31 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]

/-- Operations 49-65: the two scalar tails. -/
abbrev c4 : List (HloOp τ sig (Elt F)) :=
  [ binary main_v29 main_v31 main_v32 (subf : (⟨S8192, .f32⟩ : BufTy).Contents (Elt F) → (⟨S8192, .f32⟩ : BufTy).Contents (Elt F) → (⟨S8192, .f32⟩ : BufTy).Contents (Elt F)),
    nullary main_cst_8 (constant S_ .f32 0x3F800000#32),
    unary main_cst_8 main_v33 (broadcastInDim S8192 ![] bcast_S_S8192 : (⟨S_, .f32⟩ : BufTy).Contents (Elt F) → (⟨S8192, .f32⟩ : BufTy).Contents (Elt F)),
    binary main_v32 main_v33 main_v34 (addf : (⟨S8192, .f32⟩ : BufTy).Contents (Elt F) → (⟨S8192, .f32⟩ : BufTy).Contents (Elt F) → (⟨S8192, .f32⟩ : BufTy).Contents (Elt F)),
    nullary main_cst_9 (constant S_ .f32 0x00000000#32),
    unary main_cst_9 main_v35 (broadcastInDim S8192 ![] bcast_S_S8192 : (⟨S_, .f32⟩ : BufTy).Contents (Elt F) → (⟨S8192, .f32⟩ : BufTy).Contents (Elt F)),
    binary main_v35 main_v34 main_v36 (maximumf : (⟨S8192, .f32⟩ : BufTy).Contents (Elt F) → (⟨S8192, .f32⟩ : BufTy).Contents (Elt F) → (⟨S8192, .f32⟩ : BufTy).Contents (Elt F)),
    nullary main_cst_10 (constant S_ .f32 0x00000000#32),
    binary main_v36 main_cst_10 main_v37 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_11 (constant S_ .f32 0x46000000#32),
    binary main_v37 main_cst_11 main_v38 (Host.divf : (⟨S_, .f32⟩ : BufTy).Contents (Elt F) → (⟨S_, .f32⟩ : BufTy).Contents (Elt F) → (⟨S_, .f32⟩ : BufTy).Contents (Elt F)),
    binary main_v31 main_v29 main_v39 (cmpf .ogt : (⟨S8192, .f32⟩ : BufTy).Contents (Elt F) → (⟨S8192, .f32⟩ : BufTy).Contents (Elt F) → (⟨S8192, .i1⟩ : BufTy).Contents (Elt F)),
    unary main_v39 main_v40 (uitofp .f32 : (⟨S8192, .i1⟩ : BufTy).Contents (Elt F) → (⟨S8192, .f32⟩ : BufTy).Contents (Elt F)),
    nullary main_cst_12 (constant S_ .f32 0x00000000#32),
    binary main_v40 main_cst_12 main_v41 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_13 (constant S_ .f32 0x46000000#32),
    binary main_v41 main_cst_13 main_v42 (Host.divf : (⟨S_, .f32⟩ : BufTy).Contents (Elt F) → (⟨S_, .f32⟩ : BufTy).Contents (Elt F) → (⟨S_, .f32⟩ : BufTy).Contents (Elt F)) ]

theorem ops_eq : (ops : List (HloOp τ sig (Elt F))) = c1 ++ (c2 ++ (c3 ++ c4)) := rfl

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The four stretches, each over an arbitrary starting valuation

Each lemma reads one buffer after one stretch. The stretch's own operations are unfolded; the stages an earlier stretch
computed enter as hypotheses on the starting valuation and stay folded. -/

section Stretches

attribute [local irreducible] Host.reduce Host.reduceAdd Host.gather

/-- Operations 1-16 leave the gathered centre rows in their buffer. -/
theorem c1_v6 (W : Valuation τ sig (Elt F)) : after c1 W (Proc.devRef .tc main_v6)
    = val_main_v6 (F := F) (W (Proc.devRef .tc main_arg1)) (W (Proc.devRef .tc main_arg2)) := by
  after_results
  <;> rfl

/-- … the column of the query rows' squared norms in its buffer. -/
theorem c1_v9 (W : Valuation τ sig (Elt F)) : after c1 W (Proc.devRef .tc main_v9)
    = val_main_v9 (F := F) (W (Proc.devRef .tc main_arg0)) := by
  after_results
  <;> rfl

/-- … and the centre rows' squared norms in theirs. -/
theorem c1_v11 (W : Valuation τ sig (Elt F)) : after c1 W (Proc.devRef .tc main_v11)
    = val_main_v11 (F := F) (W (Proc.devRef .tc main_arg1)) (W (Proc.devRef .tc main_arg2)) := by
  after_results
  <;> rfl

theorem c1_arg0 (W : Valuation τ sig (Elt F)) : after c1 W (Proc.devRef .tc main_arg0) = W (Proc.devRef .tc main_arg0) := by
  after_results
theorem c1_arg1 (W : Valuation τ sig (Elt F)) : after c1 W (Proc.devRef .tc main_arg1) = W (Proc.devRef .tc main_arg1) := by
  after_results
theorem c1_arg2 (W : Valuation τ sig (Elt F)) : after c1 W (Proc.devRef .tc main_arg2) = W (Proc.devRef .tc main_arg2) := by
  after_results

/-- Operations 17-31 leave the clamped distance matrix, given what the first stretch left. -/
theorem c2_v22 (W : Valuation τ sig (Elt F)) (x0 : (⟨S8192x512, .f32⟩ : BufTy).Contents (Elt F)) (x1 : (⟨S8192, .i32⟩ : BufTy).Contents (Elt F)) (x2 : (⟨S512x512, .f32⟩ : BufTy).Contents (Elt F))
    (h0 : W (Proc.devRef .tc main_arg0) = x0) (h6 : W (Proc.devRef .tc main_v6) = val_main_v6 (F := F) x1 x2)
    (h9 : W (Proc.devRef .tc main_v9) = val_main_v9 (F := F) x0) (h11 : W (Proc.devRef .tc main_v11) = val_main_v11 (F := F) x1 x2) :
    after c2 W (Proc.devRef .tc main_v22) = val_main_v22 (F := F) x0 x1 x2 := by
  after_results
  rw [h0, h6, h9, h11]
  rfl

theorem c2_arg0 (W : Valuation τ sig (Elt F)) : after c2 W (Proc.devRef .tc main_arg0) = W (Proc.devRef .tc main_arg0) := by
  after_results
theorem c2_arg1 (W : Valuation τ sig (Elt F)) : after c2 W (Proc.devRef .tc main_arg1) = W (Proc.devRef .tc main_arg1) := by
  after_results
theorem c2_arg2 (W : Valuation τ sig (Elt F)) : after c2 W (Proc.devRef .tc main_arg2) = W (Proc.devRef .tc main_arg2) := by
  after_results

/-- Operations 32-48 leave the row-wise maximum of the same-class matrix, given the labels and the distance matrix. -/
theorem c3_v29 (W : Valuation τ sig (Elt F)) (x0 : (⟨S8192x512, .f32⟩ : BufTy).Contents (Elt F)) (x1 : (⟨S8192, .i32⟩ : BufTy).Contents (Elt F)) (x2 : (⟨S512x512, .f32⟩ : BufTy).Contents (Elt F))
    (h1 : W (Proc.devRef .tc main_arg1) = x1) (h22 : W (Proc.devRef .tc main_v22) = val_main_v22 (F := F) x0 x1 x2) :
    after c3 W (Proc.devRef .tc main_v29) = val_main_v29 (F := F) x0 x1 x2 := by
  after_results
  rw [h1, h22]
  rfl

/-- … and the row-wise minimum of the other-class matrix. -/
theorem c3_v31 (W : Valuation τ sig (Elt F)) (x0 : (⟨S8192x512, .f32⟩ : BufTy).Contents (Elt F)) (x1 : (⟨S8192, .i32⟩ : BufTy).Contents (Elt F)) (x2 : (⟨S512x512, .f32⟩ : BufTy).Contents (Elt F))
    (h1 : W (Proc.devRef .tc main_arg1) = x1) (h22 : W (Proc.devRef .tc main_v22) = val_main_v22 (F := F) x0 x1 x2) :
    after c3 W (Proc.devRef .tc main_v31) = val_main_v31 (F := F) x0 x1 x2 := by
  after_results
  rw [h1, h22]
  rfl

theorem c3_arg0 (W : Valuation τ sig (Elt F)) : after c3 W (Proc.devRef .tc main_arg0) = W (Proc.devRef .tc main_arg0) := by
  after_results
theorem c3_arg1 (W : Valuation τ sig (Elt F)) : after c3 W (Proc.devRef .tc main_arg1) = W (Proc.devRef .tc main_arg1) := by
  after_results
theorem c3_arg2 (W : Valuation τ sig (Elt F)) : after c3 W (Proc.devRef .tc main_arg2) = W (Proc.devRef .tc main_arg2) := by
  after_results

/-- Operations 49-65 leave the margin loss of the two mined columns. -/
theorem c4_v38 (W : Valuation τ sig (Elt F)) (x0 : (⟨S8192x512, .f32⟩ : BufTy).Contents (Elt F)) (x1 : (⟨S8192, .i32⟩ : BufTy).Contents (Elt F)) (x2 : (⟨S512x512, .f32⟩ : BufTy).Contents (Elt F))
    (h29 : W (Proc.devRef .tc main_v29) = val_main_v29 (F := F) x0 x1 x2) (h31 : W (Proc.devRef .tc main_v31) = val_main_v31 (F := F) x0 x1 x2) :
    after c4 W (Proc.devRef .tc main_v38) = val_main_v38 (F := F) x0 x1 x2 := by
  after_results
  rw [h29, h31]
  rfl

/-- … and their precision. -/
theorem c4_v42 (W : Valuation τ sig (Elt F)) (x0 : (⟨S8192x512, .f32⟩ : BufTy).Contents (Elt F)) (x1 : (⟨S8192, .i32⟩ : BufTy).Contents (Elt F)) (x2 : (⟨S512x512, .f32⟩ : BufTy).Contents (Elt F))
    (h29 : W (Proc.devRef .tc main_v29) = val_main_v29 (F := F) x0 x1 x2) (h31 : W (Proc.devRef .tc main_v31) = val_main_v31 (F := F) x0 x1 x2) :
    after c4 W (Proc.devRef .tc main_v42) = val_main_v42 (F := F) x0 x1 x2 := by
  after_results
  rw [h29, h31]
  rfl

theorem c4_arg0 (W : Valuation τ sig (Elt F)) : after c4 W (Proc.devRef .tc main_arg0) = W (Proc.devRef .tc main_arg0) := by
  after_results
theorem c4_arg1 (W : Valuation τ sig (Elt F)) : after c4 W (Proc.devRef .tc main_arg1) = W (Proc.devRef .tc main_arg1) := by
  after_results
theorem c4_arg2 (W : Valuation τ sig (Elt F)) : after c4 W (Proc.devRef .tc main_arg2) = W (Proc.devRef .tc main_arg2) := by
  after_results

end Stretches

/-! ## The whole line -/

theorem after_ops (V : Valuation τ sig (Elt F)) :
    after (ops (F := F)) V = after c4 (after c3 (after c2 (after c1 V))) := by
  rw [ops_eq, after_append, after_append, after_append]

/-- After the whole line the two result buffers hold the last two stages of the three arguments' starting contents. -/
theorem ops_results (V : Valuation τ sig (Elt F)) :
    after (ops (F := F)) V (Proc.devRef .tc main_v38) = val_main_v38 (F := F) (V (Proc.devRef .tc main_arg0)) (V (Proc.devRef .tc main_arg1)) (V (Proc.devRef .tc main_arg2))
    ∧ after (ops (F := F)) V (Proc.devRef .tc main_v42) = val_main_v42 (F := F) (V (Proc.devRef .tc main_arg0)) (V (Proc.devRef .tc main_arg1)) (V (Proc.devRef .tc main_arg2)) := by
  rw [after_ops]
  have h22 := c2_v22 (after c1 V) _ _ _ (c1_arg0 V) (c1_v6 V) (c1_v9 V) (c1_v11 V)
  have b1 : after c2 (after c1 V) (Proc.devRef .tc main_arg1) = V (Proc.devRef .tc main_arg1) := (c2_arg1 _).trans (c1_arg1 V)
  have h29 := c3_v29 (after c2 (after c1 V)) _ _ _ b1 h22
  have h31 := c3_v31 (after c2 (after c1 V)) _ _ _ b1 h22
  exact ⟨c4_v38 _ _ _ _ h29 h31, c4_v42 _ _ _ _ h29 h31⟩

/-- … and the three arguments are unchanged. -/
theorem ops_args (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2) := by
  rw [after_ops]
  exact ⟨(c4_arg0 _).trans ((c3_arg0 _).trans ((c2_arg0 _).trans (c1_arg0 V))),
    (c4_arg1 _).trans ((c3_arg1 _).trans ((c2_arg1 _).trans (c1_arg1 V))),
    (c4_arg2 _).trans ((c3_arg2 _).trans ((c2_arg2 _).trans (c1_arg2 V)))⟩

/-! ## The run -/

set_option maxRecDepth 8192 in
/-- The program is that straight line: the called functions' definitions unfolded at their calls, both sides are one
    chain of steps once sequencing is reassociated. -/
theorem main_eq (c : Dev nD) : main (F := F) c = seq ops := by
  simp only [main, fn_clip.body, fn_where.body, fn_where_0.body, seq, bind_assoc, pure_bind]
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., unary_bufs_sub .., binary_bufs_sub .., unary_bufs_sub .., unary_bufs_sub .., unary_bufs_sub .., unary_bufs_sub .., unary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub .., binary_bufs_sub .., nullary_bufs_sub .., unary_bufs_sub .., binary_bufs_sub .., nullary_bufs_sub .., unary_bufs_sub .., binary_bufs_sub .., nullary_bufs_sub .., binary_bufs_sub .., nullary_bufs_sub .., binary_bufs_sub .., binary_bufs_sub .., unary_bufs_sub .., nullary_bufs_sub .., binary_bufs_sub .., nullary_bufs_sub .., binary_bufs_sub ..⟩
/-- Every operation determines its results. -/
theorem ops_fresh : (ops : List (HloOp τ sig (Elt F))).Forall fun op => op.fresh = ∅ := by
  simp only [List.Forall]; repeat' constructor

/-- On every device, from any memory with zero counters: every weakly fair execution of the program terminates with the
    two results at the last two stages of the arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = Cert.ReferenceIdeal.ReadP.val_main_v38 (F := Ideal) (m ((c.tc : Thread nD τ).loc main_arg0)) (m ((c.tc : Thread nD τ).loc main_arg1)) (m ((c.tc : Thread nD τ).loc main_arg2))
      ∧ r.2.mem ((c.tc : Thread nD τ).loc main_v42) = Cert.ReferenceIdeal.ReadP.val_main_v42 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v38).trans (ops_results (launchContents m c)).1,
        (h c main_v42).trans (ops_results (launchContents m c)).2,
        (h c main_arg0).trans (ops_args (launchContents m c)).1,
        (h c main_arg1).trans (ops_args (launchContents m c)).2.1,
        (h c main_arg2).trans (ops_args (launchContents m c)).2.2⟩)
    (run_seq scopedRefs_eq scopedSems_eq defs main (fun _ => ops) main_eq (fun _ => ops_sub) m ρ
      (hfresh := fun _ op hop => (List.forall_iff_forall_mem.mp ops_fresh) op hop))

end Cert.ReferenceIdeal.HandRun

end
-- ==== Proof.KernelPieces.lean ====
/-
  What each control case of the kernel body leaves behind, as values.

  The body has three cases over the column block j of the grid point: the first tile of a row (j = 0) seeds the two
  carried columns with −∞ / +∞ before folding its tile in; a middle tile folds its tile into what the point before
  left; the last tile (j = 15) does the same and then copies the two carried columns to the two outputs. Each
  buffer is stored whole, so what it holds afterwards is the last store's payload — the fold `k0_pay1` (maximum) or
  `k0_pay2` (minimum) of the tile (`k0_pay7`, `k0_pay8`) into the column it found.
-/
import proofs.«120518_j15298673508622_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First tile of a row: the carried maximum ends as the tile folded into the −∞ column. -/
theorem sout_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .f32) (x1 : Vec F S512x512 .f32) (x2 : Vec F S512x1 .f32) (x3 : Vec F S1x512 .f32) (x4 : Vec F S512x1 .i32) (x5 : Vec F S1x512 .i32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay1 (k0_pay7 x0 x1 x2 x3 x4 x5) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero hz, View.readCov_unit_zero _ hz]
  simp only [View.readAt_eq_ld, harg2.read_unread, harg3.read_unread, harg4.read_unread, harg5.read_unread, harg6.read_unread, harg7.read_unread, harg10.read_unread, harg11.read_unread, View.ld_unit_zero (S := S512x512) hz, View.ld_unit_zero (S := S512x1) hz, View.ld_unit_zero (S := S1x512) hz]

/-- First tile of a row: the carried minimum ends as the tile folded into the +∞ column. -/
theorem sout_A_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x512 .f32) (x1 : Vec F S512x512 .f32) (x2 : Vec F S512x1 .f32) (x3 : Vec F S1x512 .f32) (x4 : Vec F S512x1 .i32) (x5 : Vec F S1x512 .i32) :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay2 (k0_pay8 x0 x1 x2 x3 x4 x5) (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero hz, View.readCov_unit_zero _ hz]
  simp only [View.readAt_eq_ld, harg2.read_unread, harg3.read_unread, harg4.read_unread, harg5.read_unread, harg6.read_unread, harg7.read_unread, harg10.read_unread, harg11.read_unread, View.ld_unit_zero (S := S512x512) hz, View.ld_unit_zero (S := S512x1) hz, View.ld_unit_zero (S := S1x512) hz]

/-- A middle tile: the carried maximum ends as the tile folded into what it held. -/
theorem sout_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .f32) (x1 : Vec F S512x512 .f32) (x2 : Vec F S512x1 .f32) (x3 : Vec F S1x512 .f32) (x4 : Vec F S512x1 .i32) (x5 : Vec F S1x512 .i32) (xs0 : Vec F S512x1 .f32) (xs1 : Vec F S512x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay7 x0 x1 x2 x3 x4 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S512x512) hz, View.ld_unit_zero (S := S512x1) hz, View.ld_unit_zero (S := S1x512) hz]

/-- A middle tile: the carried minimum ends as the tile folded into what it held. -/
theorem sout_B_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x512 .f32) (x1 : Vec F S512x512 .f32) (x2 : Vec F S512x1 .f32) (x3 : Vec F S1x512 .f32) (x4 : Vec F S512x1 .i32) (x5 : Vec F S1x512 .i32) (xs0 : Vec F S512x1 .f32) (xs1 : Vec F S512x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay8 x0 x1 x2 x3 x4 x5) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S512x512) hz, View.ld_unit_zero (S := S512x1) hz, View.ld_unit_zero (S := S1x512) hz]

/-- The last tile of a row: the carried maximum, as for a middle tile. -/
theorem sout_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .f32) (x1 : Vec F S512x512 .f32) (x2 : Vec F S512x1 .f32) (x3 : Vec F S1x512 .f32) (x4 : Vec F S512x1 .i32) (x5 : Vec F S1x512 .i32) (xs0 : Vec F S512x1 .f32) (xs1 : Vec F S512x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay7 x0 x1 x2 x3 x4 x5) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S512x512) hz, View.ld_unit_zero (S := S512x1) hz, View.ld_unit_zero (S := S1x512) hz]

/-- The last tile of a row: the carried minimum, as for a middle tile. -/
theorem sout_C_1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .f32) (x1 : Vec F S512x512 .f32) (x2 : Vec F S512x1 .f32) (x3 : Vec F S1x512 .f32) (x4 : Vec F S512x1 .i32) (x5 : Vec F S1x512 .i32) (xs0 : Vec F S512x1 .f32) (xs1 : Vec F S512x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay8 x0 x1 x2 x3 x4 x5) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, harg11.read_unread, View.ld_unit_zero (S := S512x512) hz, View.ld_unit_zero (S := S512x1) hz, View.ld_unit_zero (S := S1x512) hz]

/-- The last tile of a row copies the finished maximum to the first output. -/
theorem out_C_6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .f32) (x1 : Vec F S512x512 .f32) (x2 : Vec F S512x1 .f32) (x3 : Vec F S1x512 .f32) (x4 : Vec F S512x1 .i32) (x5 : Vec F S1x512 .i32) (xs0 : Vec F S512x1 .f32) (xs1 : Vec F S512x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay7 x0 x1 x2 x3 x4 x5) xs0 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz, View.readCov_unit_zero _ hz]
  simp only [View.readAt_eq_ld, harg2.read_unread, harg3.read_unread, harg4.read_unread, harg5.read_unread, harg6.read_unread, harg7.read_unread, harg10.read_unread, harg11.read_unread, View.ld_unit_zero (S := S512x512) hz, View.ld_unit_zero (S := S512x1) hz, View.ld_unit_zero (S := S1x512) hz]

/-- The last tile of a row copies the finished minimum to the second output. -/
theorem out_C_7 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .i32) (harg6 : arg6.IsWhole) (arg7 : Memref sig .tc .vmem S1x512 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x512 .f32) (x1 : Vec F S512x512 .f32) (x2 : Vec F S512x1 .f32) (x3 : Vec F S1x512 .f32) (x4 : Vec F S512x1 .i32) (x5 : Vec F S1x512 .i32) (xs0 : Vec F S512x1 .f32) (xs1 : Vec F S512x1 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay8 x0 x1 x2 x3 x4 x5) xs1 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz, View.readCov_unit_zero _ hz]
  simp only [View.readAt_eq_ld, harg2.read_unread, harg3.read_unread, harg4.read_unread, harg5.read_unread, harg6.read_unread, harg7.read_unread, harg10.read_unread, harg11.read_unread, View.ld_unit_zero (S := S512x512) hz, View.ld_unit_zero (S := S512x1) hz, View.ld_unit_zero (S := S1x512) hz]

end Cert.KernelIdeal.Pieces

end
-- ==== Proof.KernelTile.lean ====
/-
  The kernel body's arithmetic on one 512 × 512 tile, read at an index over the extended reals.

  A tile pairs 512 query rows `v3` with 512 centre rows `v5`; `v10`, `v12` are their squared norms (a column and
  a row), `v23`, `v25` their class labels. The body forms the clamped distance of every pair, masks it by label
  equality into a same-class tile (−∞ elsewhere) and an other-class tile (+∞ on the same class), and folds each tile's
  row-wise maximum / minimum into a carried column.
-/
import proofs.«120518_j15298673508622_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.KernelIdeal.Tile

open Cert.KernelIdeal Cert.KernelIdeal.Gen Idealize.ShloMosaic Idealize.ShloMosaic.ValueIdx

/-- The clamped distance of the tile's query row `p` to its centre row `q`, by the expanded square. -/
def tdist (v3 v5 : Vec Ideal S512x512 .f32) (v10 : Vec Ideal S512x1 .f32) (v12 : Vec Ideal S1x512 .f32) (p q : Fin 512) : Ideal .f32 :=
  Ideal.sqrt (max (v10 (ix2 p 0) + v12 (ix2 0 q)
    - Ideal.ofBits .f32 0x40000000#32 * ∑ k : Fin 512, v3 (ix2 p k) * v5 (ix2 q k)) (Ideal.ofBits .f32 0x2B8CBCCC#32))

/-! ## The distance tile -/

/-- The tile's contraction: the query tile's column axis against the transposed centre tile's row axis. -/
private abbrev D := dot_S512x512_S512x512_S512x512_1_0_0_1_n_n

private theorem lhs_0 (i : S512x512.Idx) (c : D.contr.Idx) : (D.lhsIdx i c 0).val = (i 0).val := by
  unfold DotDims.lhsIdx
  rw [dif_neg (show ¬(0 : Fin S512x512.rank) ∈ D.lhsBatch by decide), dif_pos (show (0 : Fin S512x512.rank) ∈ D.lhsNonContracting by decide)]
  rfl

private theorem lhs_1 (i : S512x512.Idx) (c : D.contr.Idx) : (D.lhsIdx i c 1).val = (c ⟨0, by decide⟩).val :=
  D.lhsIdx_val_of_single rfl i c

private theorem rhs_0 (i : S512x512.Idx) (c : D.contr.Idx) : (D.rhsIdx i c 0).val = (c ⟨0, by decide⟩).val :=
  D.rhsIdx_val_of_single rfl i c

private theorem rhs_1 (i : S512x512.Idx) (c : D.contr.Idx) : (D.rhsIdx i c 1).val = (i 1).val := by
  unfold DotDims.rhsIdx
  rw [dif_neg (show ¬(1 : Fin S512x512.rank) ∈ D.rhsBatch by decide), dif_pos (show (1 : Fin S512x512.rank) ∈ D.rhsNonContracting by decide)]
  rfl

/-- The matrix product into the zero accumulator, read at `(p, q)`: the sum over the contracted coordinate. -/
private theorem matmul_tile_apply (a b : FVec Ideal S512x512 .bf16) (p q : Fin 512) :
    matmul D none a b (constant (F := Ideal) S512x512 .f32 0x00000000#32) (ix2 p q) = ∑ k : Fin 512, a (ix2 p k) * b (ix2 k q) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 p q) ((contrEquiv1 D 512 rfl rfl).symm k) = ix2 p k := funext fun ax => Fin.ext (by
    match ax with
    | ⟨0, _⟩ => exact lhs_0 _ _
    | ⟨1, _⟩ => exact (lhs_1 _ _).trans hk)
  have er : D.rhsIdx (ix2 p q) ((contrEquiv1 D 512 rfl rfl).symm k) = ix2 k q := funext fun ax => Fin.ext (by
    match ax with
    | ⟨0, _⟩ => exact (rhs_0 _ _).trans hk
    | ⟨1, _⟩ => exact rhs_1 _ _)
  rw [el, er]

/-- A column broadcast across the tile reads, at `(p, q)`, the column's entry `p`. -/
private theorem bcast_col_apply {α : Type} (x : S512x1.Idx → α) (p q : Fin 512) :
    broadcastTo S512x512 x broadcasts_S512x1_S512x512 (ix2 p q) = x (ix2 p 0) := by
  refine broadcastTo_apply x _ (ix2 p q) (ix2 p 0) fun ax => ?_
  match ax with
  | ⟨0, _⟩ => rfl
  | ⟨1, _⟩ => rfl

/-- The clamped distance tile at `(p, q)`. Rounding to the narrower format is the identity over the extended reals, the
    transposed centre tile at `(k, q)` is the centre tile at `(q, k)`, and the product into the zero accumulator is
    the inner product of query row `p` with centre row `q`. -/
private theorem pay5_apply (v3 v5 : Vec Ideal S512x512 .f32) (v10 : Vec Ideal S512x1 .f32) (v12 : Vec Ideal S1x512 .f32) (p q : Fin 512) :
    k0_pay5 (F := Ideal) v3 v5 v10 v12 (ix2 p q) = tdist v3 v5 v10 v12 p q := by
  have e : k0_pay5 (F := Ideal) v3 v5 v10 v12
      = sqrt (maximumf (subf (addf (broadcastTo S512x512 v10 broadcasts_S512x1_S512x512) (broadcastTo S512x512 v12 broadcasts_S1x512_S512x512))
          (mulf (broadcast S512x512 (Scalar.ofBits (F := Ideal) .f32 0x40000000#32))
            (matmul D none (truncf .bf16 v3 bitsLt_bf16_f32) (transpose S512x512 [1, 0] (truncf .bf16 v5 bitsLt_bf16_f32) transposes_S512x512_p1_0_S512x512)
              (constant (F := Ideal) S512x512 .f32 0x00000000#32))))
          (broadcast S512x512 (Scalar.ofBits (F := Ideal) .f32 0x2B8CBCCC#32))) := by
    unfold k0_pay5
    simp only [shapeCast_self]
  rw [e]
  show Ideal.sqrt (max (broadcastTo S512x512 v10 broadcasts_S512x1_S512x512 (ix2 p q) + broadcastTo S512x512 v12 broadcasts_S1x512_S512x512 (ix2 p q)
      - Ideal.ofBits .f32 0x40000000#32 * matmul D none (truncf .bf16 v3 bitsLt_bf16_f32) (transpose S512x512 [1, 0] (truncf .bf16 v5 bitsLt_bf16_f32) transposes_S512x512_p1_0_S512x512)
              (constant (F := Ideal) S512x512 .f32 0x00000000#32) (ix2 p q)) (Ideal.ofBits .f32 0x2B8CBCCC#32)) = _
  rw [bcast_col_apply, broadcastTo_1b_ab_apply, matmul_tile_apply]
  unfold tdist
  refine congrArg (fun s => Ideal.sqrt (max (v10 (ix2 p 0) + v12 (ix2 0 q) - Ideal.ofBits .f32 0x40000000#32 * s) (Ideal.ofBits .f32 0x2B8CBCCC#32))) ?_
  refine Finset.sum_congr rfl fun k _ => ?_
  have ht := transpose_ix2_apply (truncf .bf16 v5 bitsLt_bf16_f32 : FVec Ideal S512x512 .bf16) transposes_S512x512_p1_0_S512x512 k q
  exact congrArg (v3 (ix2 p k) * ·) ht

/-- The label mask at `(p, q)`: whether query `p` and centre `q` carry the same label. -/
private theorem pay6_apply (v23 : Vec Ideal S512x1 .i32) (v25 : Vec Ideal S1x512 .i32) (p q : Fin 512) :
    k0_pay6 (F := Ideal) v23 v25 (ix2 p q) = IntOp.cmpi .eq (v23 (ix2 p 0)) (v25 (ix2 0 q)) := by
  have e : k0_pay6 (F := Ideal) v23 v25
      = cmpi .eq (broadcastTo S512x512 v23 broadcasts_S512x1_S512x512) (broadcastTo S512x512 v25 broadcasts_S1x512_S512x512) := by
    unfold k0_pay6
    simp only [shapeCast_self]
  rw [e]
  show IntOp.cmpi .eq (broadcastTo S512x512 v23 broadcasts_S512x1_S512x512 (ix2 p q)) (broadcastTo S512x512 v25 broadcasts_S1x512_S512x512 (ix2 p q)) = _
  rw [bcast_col_apply, broadcastTo_1b_ab_apply]

/-- The same-class tile: the distance where the labels agree, −∞ elsewhere. -/
theorem pay7_apply (v3 v5 : Vec Ideal S512x512 .f32) (v10 : Vec Ideal S512x1 .f32) (v12 : Vec Ideal S1x512 .f32)
    (v23 : Vec Ideal S512x1 .i32) (v25 : Vec Ideal S1x512 .i32) (p q : Fin 512) :
    k0_pay7 (F := Ideal) v3 v5 v10 v12 v23 v25 (ix2 p q)
      = Scalar.select (IntOp.cmpi .eq (v23 (ix2 p 0)) (v25 (ix2 0 q))) (tdist v3 v5 v10 v12 p q) (Ideal.ofBits .f32 0xFF800000#32) := by
  show Scalar.select (k0_pay6 (F := Ideal) v23 v25 (ix2 p q)) (k0_pay5 (F := Ideal) v3 v5 v10 v12 (ix2 p q)) (Ideal.ofBits .f32 0xFF800000#32) = _
  rw [pay6_apply, pay5_apply]

/-- The other-class tile: +∞ where the labels agree, the distance elsewhere. -/
theorem pay8_apply (v3 v5 : Vec Ideal S512x512 .f32) (v10 : Vec Ideal S512x1 .f32) (v12 : Vec Ideal S1x512 .f32)
    (v23 : Vec Ideal S512x1 .i32) (v25 : Vec Ideal S1x512 .i32) (p q : Fin 512) :
    k0_pay8 (F := Ideal) v3 v5 v10 v12 v23 v25 (ix2 p q)
      = Scalar.select (IntOp.cmpi .eq (v23 (ix2 p 0)) (v25 (ix2 0 q))) (Ideal.ofBits .f32 0x7F800000#32) (tdist v3 v5 v10 v12 p q) := by
  show Scalar.select (k0_pay6 (F := Ideal) v23 v25 (ix2 p q)) (Ideal.ofBits .f32 0x7F800000#32) (k0_pay5 (F := Ideal) v3 v5 v10 v12 (ix2 p q)) = _
  rw [pay6_apply, pay5_apply]

/-- A length-512 vector cast to a 512 × 1 column reads, at row `p`, the vector's entry `p`. -/
private theorem shapeCast_col_apply {α : Type} (x : S512.Idx → α) (h : S512.ShapeCasts S512x1) (p : Fin 512) :
    shapeCast S512x1 x h (ix2 p 0) = x (ix1 p) :=
  shapeCast_apply x h _ _ (by
    rw [Shape.rowMajor_val_two, Shape.rowMajor_val_one]
    show p.val = p.val * 1 + 0
    omega)

/-- Putting the column `q` back on the reduced axis of the row index `p` gives the tile index `(p, q)`. -/
private theorem lift_row (p q : Fin 512) : reduces_S512x512_S512.lift (ix1 p) q = ix2 p q :=
  funext fun a => Fin.ext (by match a with | ⟨0, _⟩ => rfl | ⟨1, _⟩ => rfl)

/-- The carried maximum after a tile: the old entry against the tile row's maximum (from the seed −∞). -/
theorem pay1_apply (v31 : FVec Ideal S512x512 .f32) (v34 : Vec Ideal S512x1 .f32) (p : Fin 512) :
    k0_pay1 (F := Ideal) v31 v34 (ix2 p 0)
      = max (v34 (ix2 p 0)) ((Finset.univ : Finset (Fin 512)).fold max (Ideal.ofBits .f32 0xFF800000#32) fun q => v31 (ix2 p q)) := by
  -- the outer cast is between equal shapes; what is left is the entrywise maximum with the cast row maxima
  have e : k0_pay1 (F := Ideal) v31 v34 = maximumf v34 (shapeCast S512x1 (multiReduction .maximumf [1] S512 v31 0xFF800000#32 reduces_S512x512_S512 (.inl rfl) rfl) shapeCasts_S512_S512x1) := shapeCast_self _ _
  rw [e]
  refine congrArg (max (v34 (ix2 p 0))) ?_
  refine (shapeCast_col_apply _ _ p).trans ?_
  -- the reduction over the column axis, read at row `p`, is the fold of `max` over that row's entries
  refine (Ideal.multiReduction_maximumf_single v31 _ reduces_S512x512_S512 _ _ (ix1 p)).trans ?_
  refine congrArg (fun f => (Finset.univ : Finset (Fin 512)).fold max (Ideal.ofBits .f32 0xFF800000#32) f) ?_
  funext q
  exact congrArg v31 (lift_row p q)

/-- The carried minimum after a tile: the old entry against the tile row's minimum (from the seed +∞). -/
theorem pay2_apply (v33 : FVec Ideal S512x512 .f32) (v41 : Vec Ideal S512x1 .f32) (p : Fin 512) :
    k0_pay2 (F := Ideal) v33 v41 (ix2 p 0)
      = min (v41 (ix2 p 0)) ((Finset.univ : Finset (Fin 512)).fold min (Ideal.ofBits .f32 0x7F800000#32) fun q => v33 (ix2 p q)) := by
  -- the outer cast is between equal shapes; what is left is the entrywise minimum with the cast row minima
  have e : k0_pay2 (F := Ideal) v33 v41 = minimumf v41 (shapeCast S512x1 (multiReduction .minimumf [1] S512 v33 0x7F800000#32 reduces_S512x512_S512 (.inl rfl) rfl) shapeCasts_S512_S512x1) := shapeCast_self _ _
  rw [e]
  refine congrArg (min (v41 (ix2 p 0))) ?_
  refine (shapeCast_col_apply _ _ p).trans ?_
  -- the reduction, read at row `p`, folds `min` over the tile indices in row `p`, that is over the row's entries
  refine (multiReduction_minimumf_eq_fold v33 _ reduces_S512x512_S512 _ _ (ix1 p)).trans ?_
  refine (reduces_S512x512_S512.fold_filter_drop_single _ _ v33 (ix1 p)).trans ?_
  refine congrArg (fun f => (Finset.univ : Finset (Fin 512)).fold min (Ideal.ofBits .f32 0x7F800000#32) f) ?_
  funext q
  exact congrArg v33 (lift_row p q)

/-- The column the first tile of a row starts the maximum from: −∞ everywhere. -/
theorem pay3_apply (j : S512x1.Idx) : k0_pay3 (F := Ideal) j = Ideal.ofBits .f32 0xFF800000#32 := by
  have e : k0_pay3 (F := Ideal) = broadcast S512x1 (Scalar.ofBits (F := Ideal) .f32 0xFF800000#32) := shapeCast_self _ _
  rw [e]
  rfl

/-- The column the first tile of a row starts the minimum from: +∞ everywhere. -/
theorem pay4_apply (j : S512x1.Idx) : k0_pay4 (F := Ideal) j = Ideal.ofBits .f32 0x7F800000#32 := by
  have e : k0_pay4 (F := Ideal) = broadcast S512x1 (Scalar.ofBits (F := Ideal) .f32 0x7F800000#32) := shapeCast_self _ _
  rw [e]
  rfl

end Cert.KernelIdeal.Tile

end
-- ==== Proof.Spec.lean ====
/-
  What both programs compute, index by index, over the extended reals.

  From the query rows `A` (8192 × 512), the gathered centre rows `CB` (8192 × 512), the squared norms `ISQ` of
  the query rows (a column) and `CSQ` of the centre rows, and the class labels `T`:

    dist r j  = sqrt (max (‖A r‖² + ‖CB j‖² − 2 · ⟨A r, CB j⟩) ε)          the clamped distance of query r to centre row j
    pos  r j  = dist r j if T r = T j, else −∞                              the same-class entries
    neg  r j  = +∞ if T r = T j, else dist r j                              the other-class entries
    hardPos r = the maximum over j of pos r j, from the seed −∞
    hardNeg r = the minimum over j of neg r j, from the seed +∞

  and the two scalar results are `lossTail hardPos hardNeg` — the mean of max 0 (hardPos − hardNeg + 1) — and
  `precTail hardPos hardNeg` — the fraction of rows with hardNeg > hardPos. The constants are kept as the binary
  words both programs spell: the same word on both sides is never evaluated.
-/
import Idealize.ShloMosaic.PureOps.Ideal
import Idealize.ShloMosaic.Lib.ValueIdx

noncomputable section

namespace Cert.Spec

open Idealize.ShloMosaic Idealize.ShloMosaic.ValueIdx

/-- The word of −∞, the seed of every maximum here. -/
abbrev negInf : Ideal .f32 := Ideal.ofBits .f32 0xFF800000#32
/-- The word of +∞, the seed of every minimum here. -/
abbrev posInf : Ideal .f32 := Ideal.ofBits .f32 0x7F800000#32

abbrev Rows : Shape := ⟨2, ![8192, 512]⟩
abbrev Col : Shape := ⟨2, ![8192, 1]⟩
abbrev Vec1 : Shape := ⟨1, ![8192]⟩
abbrev Sc : Shape := ⟨0, ![]⟩

variable (A CB : Rows.Idx → Ideal .f32) (ISQ : Col.Idx → Ideal .f32) (CSQ : Vec1.Idx → Ideal .f32)
  (T : Vec1.Idx → BitVec 32)

/-- The clamped distance of query row `r` to centre row `j`, by the expanded square. -/
def dist (r j : Fin 8192) : Ideal .f32 :=
  Ideal.sqrt (max (ISQ (ix2 r 0) + CSQ (ix1 j)
    - Ideal.ofBits .f32 0x40000000#32 * ∑ k : Fin 512, A (ix2 r k) * CB (ix2 j k)) (Ideal.ofBits .f32 0x2B8CBCCC#32))

/-- Same-class entries keep the distance; the others are −∞. -/
def pos (r j : Fin 8192) : Ideal .f32 :=
  Scalar.select (IntOp.cmpi .eq (T (ix1 r)) (T (ix1 j))) (dist A CB ISQ CSQ r j) negInf

/-- Other-class entries keep the distance; the same-class ones are +∞. -/
def neg (r j : Fin 8192) : Ideal .f32 :=
  Scalar.select (IntOp.cmpi .eq (T (ix1 r)) (T (ix1 j))) posInf (dist A CB ISQ CSQ r j)

/-- The hardest positive of row `r`. -/
def hardPos (i : Vec1.Idx) : Ideal .f32 :=
  (Finset.univ : Finset (Fin 8192)).fold max negInf (pos A CB ISQ CSQ T (i 0))

/-- The hardest negative of row `r`. -/
def hardNeg (i : Vec1.Idx) : Ideal .f32 :=
  (Finset.univ : Finset (Fin 8192)).fold min posInf (neg A CB ISQ CSQ T (i 0))

theorem bcastSc : Sc.BroadcastsInDim Vec1 (![] : Fin 0 → Fin Vec1.rank) := by decide
theorem redVec : Vec1.ReducesTo [0] Sc := by decide
theorem posSc : 0 < Sc.numel := by decide

/-- The margin loss from the two mined columns: the mean over rows of max 0 (ap − an + 1). -/
def lossTail (ap an : FVec Ideal Vec1 .f32) : FVec Ideal Sc .f32 :=
  Host.divf
    (Host.reduceAdd
      (maximumf (broadcastInDim Vec1 ![] bcastSc (constant (F := Ideal) Sc .f32 0x00000000#32))
        (addf (subf ap an) (broadcastInDim Vec1 ![] bcastSc (constant (F := Ideal) Sc .f32 0x3F800000#32))))
      (constant (F := Ideal) Sc .f32 0x00000000#32) redVec posSc)
    (constant (F := Ideal) Sc .f32 0x46000000#32)

/-- The fraction of rows whose hardest negative is farther than the hardest positive. -/
def precTail (ap an : FVec Ideal Vec1 .f32) : FVec Ideal Sc .f32 :=
  Host.divf
    (Host.reduceAdd (uitofp (F := Ideal) .f32 (cmpf .ogt an ap))
      (constant (F := Ideal) Sc .f32 0x00000000#32) redVec posSc)
    (constant (F := Ideal) Sc .f32 0x46000000#32)

end Cert.Spec

end
-- ==== Proof.FoldLaw.lean ====
/-
  Running maxima and minima of a finite family, taken a tile at a time.

  For a family `f : Fin N → α` in a linear order and a seed `b`, `maxUpTo b f n` is the maximum of `b` and the
  entries `f j` with `j < n`. It is characterised by its upper bounds (`maxUpTo_le_iff`), so that

    • before any entry it is the seed (`maxUpTo_zero`),
    • taking the maximum with the maximum of the next `k` entries (again from the seed `b`: the seed is
      absorbed, `max b b = b`) advances it by `k` (`maxUpTo_tile`),
    • after all `N` entries it is the maximum over the whole family (`maxUpTo_full`).

  No property of the seed is used: it need not be a least element. The minimum is the order dual.
-/
import Mathlib.Data.Finset.Fold
import Mathlib.Data.Fintype.Basic

namespace Cert.FoldLaw

variable {α : Type*} [LinearOrder α]

/-- The maximum of the seed `b` and the entries `f j`, `j < n`. -/
def maxUpTo {N : ℕ} (b : α) (f : Fin N → α) (n : ℕ) : α :=
  (Finset.univ.filter fun j : Fin N => j.val < n).fold max b f

/-- The minimum of the seed `b` and the entries `f j`, `j < n`. -/
def minUpTo {N : ℕ} (b : α) (f : Fin N → α) (n : ℕ) : α :=
  (Finset.univ.filter fun j : Fin N => j.val < n).fold min b f

theorem maxUpTo_le_iff {N : ℕ} (b : α) (f : Fin N → α) (n : ℕ) (c : α) :
    maxUpTo b f n ≤ c ↔ b ≤ c ∧ ∀ j : Fin N, j.val < n → f j ≤ c := by
  unfold maxUpTo
  rw [Finset.fold_max_le]
  simp only [Finset.mem_filter, Finset.mem_univ, true_and]

theorem le_minUpTo_iff {N : ℕ} (b : α) (f : Fin N → α) (n : ℕ) (c : α) :
    c ≤ minUpTo b f n ↔ c ≤ b ∧ ∀ j : Fin N, j.val < n → c ≤ f j := by
  unfold minUpTo
  rw [Finset.le_fold_min]
  simp only [Finset.mem_filter, Finset.mem_univ, true_and]

theorem maxUpTo_zero {N : ℕ} (b : α) (f : Fin N → α) : maxUpTo b f 0 = b :=
  eq_of_forall_ge_iff fun c => by
    rw [maxUpTo_le_iff]
    exact ⟨fun h => h.1, fun h => ⟨h, fun j hj => absurd hj (Nat.not_lt_zero _)⟩⟩

theorem minUpTo_zero {N : ℕ} (b : α) (f : Fin N → α) : minUpTo b f 0 = b :=
  eq_of_forall_le_iff fun c => by
    rw [le_minUpTo_iff]
    exact ⟨fun h => h.1, fun h => ⟨h, fun j hj => absurd hj (Nat.not_lt_zero _)⟩⟩

/-- The next tile: `e` names the entries `n, n + 1, …, n + k - 1`. -/
theorem maxUpTo_tile {N : ℕ} (b : α) (f : Fin N → α) (n k : ℕ) (e : Fin k → Fin N)
    (he : ∀ q : Fin k, (e q).val = n + q.val) :
    max (maxUpTo b f n) ((Finset.univ : Finset (Fin k)).fold max b fun q => f (e q)) = maxUpTo b f (n + k) :=
  eq_of_forall_ge_iff fun c => by
    rw [max_le_iff, maxUpTo_le_iff, maxUpTo_le_iff, Finset.fold_max_le]
    constructor
    · rintro ⟨⟨hb, h1⟩, _, h2⟩
      refine ⟨hb, fun j hj => ?_⟩
      by_cases hjn : j.val < n
      · exact h1 j hjn
      · have hq : j.val - n < k := by omega
        have hej : e ⟨j.val - n, hq⟩ = j := Fin.ext (by rw [he]; show n + (j.val - n) = j.val; omega)
        exact hej ▸ h2 ⟨j.val - n, hq⟩ (Finset.mem_univ _)
    · rintro ⟨hb, h⟩
      exact ⟨⟨hb, fun j hj => h j (by omega)⟩, hb, fun q _ => h (e q) (by rw [he]; have := q.isLt; omega)⟩

theorem minUpTo_tile {N : ℕ} (b : α) (f : Fin N → α) (n k : ℕ) (e : Fin k → Fin N)
    (he : ∀ q : Fin k, (e q).val = n + q.val) :
    min (minUpTo b f n) ((Finset.univ : Finset (Fin k)).fold min b fun q => f (e q)) = minUpTo b f (n + k) :=
  eq_of_forall_le_iff fun c => by
    rw [le_min_iff, le_minUpTo_iff, le_minUpTo_iff, Finset.le_fold_min]
    constructor
    · rintro ⟨⟨hb, h1⟩, _, h2⟩
      refine ⟨hb, fun j hj => ?_⟩
      by_cases hjn : j.val < n
      · exact h1 j hjn
      · have hq : j.val - n < k := by omega
        have hej : e ⟨j.val - n, hq⟩ = j := Fin.ext (by rw [he]; show n + (j.val - n) = j.val; omega)
        exact hej ▸ h2 ⟨j.val - n, hq⟩ (Finset.mem_univ _)
    · rintro ⟨hb, h⟩
      exact ⟨⟨hb, fun j hj => h j (by omega)⟩, hb, fun q _ => h (e q) (by rw [he]; have := q.isLt; omega)⟩

theorem maxUpTo_full {N : ℕ} (b : α) (f : Fin N → α) :
    maxUpTo b f N = (Finset.univ : Finset (Fin N)).fold max b f := by
  unfold maxUpTo
  rw [Finset.filter_true_of_mem fun j _ => j.isLt]

theorem minUpTo_full {N : ℕ} (b : α) (f : Fin N → α) :
    minUpTo b f N = (Finset.univ : Finset (Fin N)).fold min b f := by
  unfold minUpTo
  rw [Finset.filter_true_of_mem fun j _ => j.isLt]

end Cert.FoldLaw
-- ==== Proof.KernelStep.lean ====
/-
  One tile of the kernel advances the running maximum / minimum of a row by 512 columns.

  The grid point (ti, tj) pairs the query rows 512·ti … 512·ti + 511 with the centre rows 512·tj … 512·tj + 511.
  When the six loaded blocks are those restrictions of the arrays (`IsTile`), the same-class tile is `Spec.pos` and
  the other-class tile `Spec.neg` at the global indices (`tile_pos`, `tile_neg`), so folding the tile into a column
  that holds the running maximum of `Spec.pos (row ti p)` over the first 512·tj columns leaves the running maximum
  over the first 512·tj + 512 (`step_max`; `step_min` dually): the law is `FoldLaw.maxUpTo_tile`.
-/
import proofs.«120518_j15298673508622_1_alg».proof.Proof.KernelTile
import proofs.«120518_j15298673508622_1_alg».proof.Proof.Spec
import proofs.«120518_j15298673508622_1_alg».proof.Proof.FoldLaw

noncomputable section

namespace Cert.KernelIdeal.Step

open Cert.KernelIdeal Cert.KernelIdeal.Gen Idealize.ShloMosaic Idealize.ShloMosaic.ValueIdx
open Cert.Spec Cert.FoldLaw

/-- Row (or column) `512·b + p` of the 8192: entry `p` of block `b`. -/
def row (b : Fin 16) (p : Fin 512) : Fin 8192 := ⟨512 * b.val + p.val, by have := b.isLt; have := p.isLt; omega⟩

theorem row_val (b : Fin 16) (p : Fin 512) : (row b p).val = 512 * b.val + p.val := rfl

variable (A CB : Rows.Idx → Ideal .f32) (ISQ : Col.Idx → Ideal .f32) (CSQ : Vec1.Idx → Ideal .f32)
  (T : Vec1.Idx → BitVec 32)

/-- The six loaded blocks at grid point (ti, tj) are the arrays' restrictions to query block `ti` and centre block `tj`. -/
structure IsTile (ti tj : Fin 16) (x0 x1 : Vec Ideal S512x512 .f32) (x2 : Vec Ideal S512x1 .f32)
    (x3 : Vec Ideal S1x512 .f32) (x4 : Vec Ideal S512x1 .i32) (x5 : Vec Ideal S1x512 .i32) : Prop where
  h0 : ∀ (p : Fin 512) (k : Fin 512), x0 (ix2 p k) = A (ix2 (row ti p) k)
  h1 : ∀ (q : Fin 512) (k : Fin 512), x1 (ix2 q k) = CB (ix2 (row tj q) k)
  h2 : ∀ p : Fin 512, x2 (ix2 p 0) = ISQ (ix2 (row ti p) 0)
  h3 : ∀ q : Fin 512, x3 (ix2 0 q) = CSQ (ix1 (row tj q))
  h4 : ∀ p : Fin 512, x4 (ix2 p 0) = T (ix1 (row ti p))
  h5 : ∀ q : Fin 512, x5 (ix2 0 q) = T (ix1 (row tj q))

variable {A CB ISQ CSQ T}
variable {ti tj : Fin 16} {x0 x1 : Vec Ideal S512x512 .f32} {x2 : Vec Ideal S512x1 .f32}
  {x3 : Vec Ideal S1x512 .f32} {x4 : Vec Ideal S512x1 .i32} {x5 : Vec Ideal S1x512 .i32}

/-- The tile's distance is the specification's at the global indices. -/
theorem tile_dist (h : IsTile A CB ISQ CSQ T ti tj x0 x1 x2 x3 x4 x5) (p q : Fin 512) :
    Tile.tdist x0 x1 x2 x3 p q = Cert.Spec.dist A CB ISQ CSQ (row ti p) (row tj q) := by
  unfold Tile.tdist Cert.Spec.dist
  rw [h.h2 p, h.h3 q]
  simp only [h.h0, h.h1]

/-- The same-class tile is the specification's same-class entries at the global indices. -/
theorem tile_pos (h : IsTile A CB ISQ CSQ T ti tj x0 x1 x2 x3 x4 x5) (p q : Fin 512) :
    k0_pay7 (F := Ideal) x0 x1 x2 x3 x4 x5 (ix2 p q) = pos A CB ISQ CSQ T (row ti p) (row tj q) := by
  rw [Tile.pay7_apply, h.h4 p, h.h5 q, tile_dist h p q]
  rfl

/-- The other-class tile is the specification's other-class entries at the global indices. -/
theorem tile_neg (h : IsTile A CB ISQ CSQ T ti tj x0 x1 x2 x3 x4 x5) (p q : Fin 512) :
    k0_pay8 (F := Ideal) x0 x1 x2 x3 x4 x5 (ix2 p q) = neg A CB ISQ CSQ T (row ti p) (row tj q) := by
  rw [Tile.pay8_apply, h.h4 p, h.h5 q, tile_dist h p q]
  rfl

/-- Folding the tile into the carried maximum advances it by the tile's 512 columns. -/
theorem step_max (h : IsTile A CB ISQ CSQ T ti tj x0 x1 x2 x3 x4 x5) (xs0 : Vec Ideal S512x1 .f32) (p : Fin 512)
    (hprev : xs0 (ix2 p 0) = maxUpTo negInf (pos A CB ISQ CSQ T (row ti p)) (512 * tj.val)) :
    k0_pay1 (F := Ideal) (k0_pay7 (F := Ideal) x0 x1 x2 x3 x4 x5) xs0 (ix2 p 0)
      = maxUpTo negInf (pos A CB ISQ CSQ T (row ti p)) (512 * tj.val + 512) := by
  rw [Tile.pay1_apply, hprev]
  simp only [tile_pos h]
  exact maxUpTo_tile negInf (pos A CB ISQ CSQ T (row ti p)) (512 * tj.val) 512 (row tj) (row_val tj)

/-- Folding the tile into the carried minimum advances it by the tile's 512 columns. -/
theorem step_min (h : IsTile A CB ISQ CSQ T ti tj x0 x1 x2 x3 x4 x5) (xs1 : Vec Ideal S512x1 .f32) (p : Fin 512)
    (hprev : xs1 (ix2 p 0) = minUpTo posInf (neg A CB ISQ CSQ T (row ti p)) (512 * tj.val)) :
    k0_pay2 (F := Ideal) (k0_pay8 (F := Ideal) x0 x1 x2 x3 x4 x5) xs1 (ix2 p 0)
      = minUpTo posInf (neg A CB ISQ CSQ T (row ti p)) (512 * tj.val + 512) := by
  rw [Tile.pay2_apply, hprev]
  simp only [tile_neg h]
  exact minUpTo_tile posInf (neg A CB ISQ CSQ T (row ti p)) (512 * tj.val) 512 (row tj) (row_val tj)

end Cert.KernelIdeal.Step

end
-- ==== Proof.KernelBlocks.lean ====
/-
  What the six input windows hold at a grid point, and the arrays behind them.

  The grid is 16 × 16; point `t` has row block `t / 16` and column block `t % 16`. Window 0 (the queries) and windows
  2, 4 (their squared norms and labels, as columns) move with the row block; window 1 (the centre rows) and windows
  3, 5 (their squared norms and labels, as rows) with the column block. So the block a window hands the body at `t` is
  the restriction of its array to that block's 512 rows (or columns). Three of the arrays are reshapes the host made
  before the launch: the labels as a column and as a row, and the centre norms as a row.
-/
import proofs.«120518_j15298673508622_1_alg».proof.Proof.Gen.KernelIdeal.Frame
import proofs.«120518_j15298673508622_1_alg».proof.Proof.KernelStep
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.KernelIdeal.Step

/-- The printed index maps, decided over the grid. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 2) = 0 ∧ win0_5.index t (1 : Fin 2) = t.val % 16
    ∧ win0_6.index t (0 : Fin 2) = t.val / 16 ∧ win0_6.index t (1 : Fin 2) = 0
    ∧ win0_7.index t (0 : Fin 2) = t.val / 16 ∧ win0_7.index t (1 : Fin 2) = 0 :=
  (by decide +kernel : ∀ t : Fin grid0.N, _)

theorem lt256 (t : Fin cfg0.N) : t.val < 256 := lt_of_lt_of_eq t.isLt (show cfg0.N = 256 from N_0)

/-- The row block of grid point `t`. -/
def ti (t : Fin cfg0.N) : Fin 16 := ⟨t.val / 16, by have := lt256 t; omega⟩
/-- The column block of grid point `t`. -/
def tj (t : Fin cfg0.N) : Fin 16 := ⟨t.val % 16, by omega⟩

theorem ti_val (t : Fin cfg0.N) : (ti t).val = t.val / 16 := rfl
theorem tj_val (t : Fin cfg0.N) : (tj t).val = t.val % 16 := rfl

variable {F : FTy → Type} [FloatOps F]
variable (m : (ℓ : Loc nD τ sig) → Buf (Elt F) ℓ)

/-- The query block: rows 512·(t/16) … of the queries. -/
theorem iblk0_apply (c : Dev nD) (t : Fin cfg0.N) (p k : Fin 512) :
    (iblk m c 0 t : Vec F S512x512 .f32) (ix2 p k) = V m c main_arg0 (ix2 (row (ti t) p) k) := by
  obtain ⟨e0, e1, -⟩ := idx_facts t
  unfold iblk
  rw [View.read_apply]
  show V m c main_arg0 (((cfg0.win 0).blk t).view.emb (ix2 p k)) = V m c main_arg0 (ix2 (row (ti t) p) k)
  refine congrArg (V m c main_arg0) (funext fun a => Fin.ext ?_)
  match a with
  | ⟨0, _⟩ => show win0_0.index t (0 : Fin 2) * 512 + 1 * p.val = 512 * (t.val / 16) + p.val; rw [e0]; omega
  | ⟨1, _⟩ => show win0_0.index t (1 : Fin 2) * 512 + 1 * k.val = k.val; rw [e1]; omega

/-- The centre block: rows 512·(t%16) … of the gathered centre rows. -/
theorem iblk1_apply (c : Dev nD) (t : Fin cfg0.N) (q k : Fin 512) :
    (iblk m c 1 t : Vec F S512x512 .f32) (ix2 q k) = V m c main_v6 (ix2 (row (tj t) q) k) := by
  obtain ⟨-, -, e0, e1, -⟩ := idx_facts t
  unfold iblk
  rw [View.read_apply]
  show V m c main_v6 (((cfg0.win 1).blk t).view.emb (ix2 q k)) = V m c main_v6 (ix2 (row (tj t) q) k)
  refine congrArg (V m c main_v6) (funext fun a => Fin.ext ?_)
  match a with
  | ⟨0, _⟩ => show win0_1.index t (0 : Fin 2) * 512 + 1 * q.val = 512 * (t.val % 16) + q.val; rw [e0]; omega
  | ⟨1, _⟩ => show win0_1.index t (1 : Fin 2) * 512 + 1 * k.val = k.val; rw [e1]; omega

/-- The queries' squared norms, as a column block. -/
theorem iblk2_apply (c : Dev nD) (t : Fin cfg0.N) (p : Fin 512) :
    (iblk m c 2 t : Vec F S512x1 .f32) (ix2 p 0) = V m c main_v9 (ix2 (row (ti t) p) 0) := by
  obtain ⟨-, -, -, -, e0, e1, -⟩ := idx_facts t
  unfold iblk
  rw [View.read_apply]
  show V m c main_v9 (((cfg0.win 2).blk t).view.emb (ix2 p 0)) = V m c main_v9 (ix2 (row (ti t) p) 0)
  refine congrArg (V m c main_v9) (funext fun a => Fin.ext ?_)
  match a with
  | ⟨0, _⟩ => show win0_2.index t (0 : Fin 2) * 512 + 1 * p.val = 512 * (t.val / 16) + p.val; rw [e0]; omega
  | ⟨1, _⟩ => show win0_2.index t (1 : Fin 2) * 1 + 1 * 0 = 0; rw [e1]

/-- The centre rows' squared norms, as a row block. -/
theorem iblk3_apply (c : Dev nD) (t : Fin cfg0.N) (q : Fin 512) :
    (iblk m c 3 t : Vec F S1x512 .f32) (ix2 0 q) = V m c main_v12 (ix2 0 (row (tj t) q)) := by
  obtain ⟨-, -, -, -, -, -, e0, e1, -⟩ := idx_facts t
  unfold iblk
  rw [View.read_apply]
  show V m c main_v12 (((cfg0.win 3).blk t).view.emb (ix2 0 q)) = V m c main_v12 (ix2 0 (row (tj t) q))
  refine congrArg (V m c main_v12) (funext fun a => Fin.ext ?_)
  match a with
  | ⟨0, _⟩ => show win0_3.index t (0 : Fin 2) * 1 + 1 * 0 = 0; rw [e0]
  | ⟨1, _⟩ => show win0_3.index t (1 : Fin 2) * 512 + 1 * q.val = 512 * (t.val % 16) + q.val; rw [e1]; omega

/-- The queries' labels, as a column block. -/
theorem iblk4_apply (c : Dev nD) (t : Fin cfg0.N) (p : Fin 512) :
    (iblk m c 4 t : Vec F S512x1 .i32) (ix2 p 0) = V m c main_v13 (ix2 (row (ti t) p) 0) := by
  obtain ⟨-, -, -, -, -, -, -, -, e0, e1, -⟩ := idx_facts t
  unfold iblk
  rw [View.read_apply]
  show V m c main_v13 (((cfg0.win 4).blk t).view.emb (ix2 p 0)) = V m c main_v13 (ix2 (row (ti t) p) 0)
  refine congrArg (V m c main_v13) (funext fun a => Fin.ext ?_)
  match a with
  | ⟨0, _⟩ => show win0_4.index t (0 : Fin 2) * 512 + 1 * p.val = 512 * (t.val / 16) + p.val; rw [e0]; omega
  | ⟨1, _⟩ => show win0_4.index t (1 : Fin 2) * 1 + 1 * 0 = 0; rw [e1]

/-- The centre rows' labels, as a row block. -/
theorem iblk5_apply (c : Dev nD) (t : Fin cfg0.N) (q : Fin 512) :
    (iblk m c 5 t : Vec F S1x512 .i32) (ix2 0 q) = V m c main_v14 (ix2 0 (row (tj t) q)) := by
  obtain ⟨-, -, -, -, -, -, -, -, -, -, e0, e1, -⟩ := idx_facts t
  unfold iblk
  rw [View.read_apply]
  show V m c main_v14 (((cfg0.win 5).blk t).view.emb (ix2 0 q)) = V m c main_v14 (ix2 0 (row (tj t) q))
  refine congrArg (V m c main_v14) (funext fun a => Fin.ext ?_)
  match a with
  | ⟨0, _⟩ => show win0_5.index t (0 : Fin 2) * 1 + 1 * 0 = 0; rw [e0]
  | ⟨1, _⟩ => show win0_5.index t (1 : Fin 2) * 512 + 1 * q.val = 512 * (t.val % 16) + q.val; rw [e1]; omega

/-! ## The three reshapes the host makes before the launch -/

/-- The labels as a column are the labels. -/
theorem v13_apply (c : Dev nD) (r : Fin 8192) : V m c main_v13 (ix2 r 0) = V m c main_arg1 (ix1 r) := by
  have e : (V m c main_v13 : S8192x1.Idx → BitVec 32)
      = shapeCast S8192x1 (m ((c : Thread nD τ).loc main_arg1)) shapeCasts_S8192_S8192x1 := by
    show StableHlo.after hostOps0 (fun b => m (c, b)) (Proc.devRef .tc main_v13) = _
    after_results; rfl
  rw [e, V_main_arg1]
  exact shapeCast_apply _ shapeCasts_S8192_S8192x1 (ix2 r 0) (ix1 r) (by
    rw [Shape.rowMajor_val_one, Shape.rowMajor_val_two]; show r.val = r.val * 1 + 0; omega)

/-- The labels as a row are the labels. -/
theorem v14_apply (c : Dev nD) (j : Fin 8192) : V m c main_v14 (ix2 0 j) = V m c main_arg1 (ix1 j) := by
  have e : (V m c main_v14 : S1x8192.Idx → BitVec 32)
      = shapeCast S1x8192 (m ((c : Thread nD τ).loc main_arg1)) shapeCasts_S8192_S1x8192 := by
    show StableHlo.after hostOps0 (fun b => m (c, b)) (Proc.devRef .tc main_v14) = _
    after_results; rfl
  rw [e, V_main_arg1]
  exact shapeCast_apply _ shapeCasts_S8192_S1x8192 (ix2 0 j) (ix1 j) (by
    rw [Shape.rowMajor_val_one, Shape.rowMajor_val_two]; show j.val = 0 * 8192 + j.val; omega)

set_option maxHeartbeats 4000000 in
/-- The centre rows' squared norms as a row are those norms. -/
theorem v12_apply (c : Dev nD) (j : Fin 8192) : V m c main_v12 (ix2 0 j) = V m c main_v11 (ix1 j) := by
  have e : (V m c main_v12 : S1x8192.Idx → F .f32) = shapeCast S1x8192 (V m c main_v11) shapeCasts_S8192_S1x8192 := by
    show StableHlo.after hostOps0 (fun b => m (c, b)) (Proc.devRef .tc main_v12)
      = shapeCast S1x8192 (StableHlo.after hostOps0 (fun b => m (c, b)) (Proc.devRef .tc main_v11)) shapeCasts_S8192_S1x8192
    after_results; rfl
  rw [e]
  exact shapeCast_apply _ shapeCasts_S8192_S1x8192 (ix2 0 j) (ix1 j) (by
    rw [Shape.rowMajor_val_one, Shape.rowMajor_val_two]; show j.val = 0 * 8192 + j.val; omega)

end Cert.KernelIdeal.Blocks

namespace Cert.KernelIdeal.Blocks

open Cert.KernelIdeal Cert.KernelIdeal.Gen Idealize.ShloMosaic.ValueIdx Cert.KernelIdeal.Step

/-! ## The arrays the specification is read over, and the tile at a grid point -/

variable (m : (ℓ : Loc nD τ sig) → Buf (Elt Ideal) ℓ)

/-- The query rows as the region finds them. -/
def qA (c : Dev nD) : Cert.Spec.Rows.Idx → Ideal .f32 := V m c main_arg0
/-- The gathered centre rows. -/
def cB (c : Dev nD) : Cert.Spec.Rows.Idx → Ideal .f32 := V m c main_v6
/-- The query rows' squared norms, a column. -/
def iSq (c : Dev nD) : Cert.Spec.Col.Idx → Ideal .f32 := V m c main_v9
/-- The centre rows' squared norms. -/
def cSq (c : Dev nD) : Cert.Spec.Vec1.Idx → Ideal .f32 := V m c main_v11
/-- The class labels. -/
def lab (c : Dev nD) : Cert.Spec.Vec1.Idx → BitVec 32 := V m c main_arg1

/-- At every grid point the six loaded blocks are the tile of the point's row block and column block. -/
theorem isTile (c : Dev nD) (t : Fin cfg0.N) :
    IsTile (qA m c) (cB m c) (iSq m c) (cSq m c) (lab m c) (ti t) (tj t)
      (iblk m c 0 t) (iblk m c 1 t) (iblk m c 2 t) (iblk m c 3 t) (iblk m c 4 t) (iblk m c 5 t) where
  h0 p k := iblk0_apply m c t p k
  h1 q k := iblk1_apply m c t q k
  h2 p := iblk2_apply m c t p
  h3 q := (iblk3_apply m c t q).trans (v12_apply m c (row (tj t) q))
  h4 p := (iblk4_apply m c t p).trans (v13_apply m c (row (ti t) p))
  h5 q := (iblk5_apply m c t q).trans (v14_apply m c (row (tj t) q))

end Cert.KernelIdeal.Blocks

end
-- ==== Proof.KernelInv.lean ====
/-
  What the two carried columns, and at a row's last tile the two outputs, hold after every grid point.

  After point `t` = (row block ti, column block tj) the carried maximum holds, at entry `p`, the running maximum of
  the same-class entries of row 512·ti + p over the first 512·tj + 512 columns (from the seed −∞), and the carried
  minimum the running minimum of the other-class entries (from +∞): `maxAfter`, `minAfter`. By induction on the point:
  the first tile of a row starts from the seed column (the running value over no column), every other tile from what
  the point before — the same row block, one column block earlier — left; the step is `Step.step_max` / `step_min`.
  At a row's last tile the body copies the two columns to the two outputs.
-/
import proofs.«120518_j15298673508622_1_alg».proof.Proof.KernelPieces
import proofs.«120518_j15298673508622_1_alg».proof.Proof.KernelBlocks

set_option maxRecDepth 16384

noncomputable section

open Idealize.ShloMosaic Idealize.ShloMosaic.TcCoe Idealize.SL.Sem

namespace Cert.KernelIdeal.Inv

open Cert.KernelIdeal Cert.KernelIdeal.Gen Idealize.ShloMosaic.ValueIdx Cert.KernelIdeal.Step Cert.KernelIdeal.Blocks
open Cert.Spec Cert.FoldLaw

variable (m : (ℓ : Loc nD τ sig) → Buf (Elt Ideal) ℓ)

/-- The carried maximum after point `t`, at entry `p`. -/
def maxAfter (c : Dev nD) (t : Fin cfg0.N) (p : Fin 512) : Ideal .f32 :=
  maxUpTo negInf (pos (qA m c) (cB m c) (iSq m c) (cSq m c) (lab m c) (row (ti t) p)) (512 * (tj t).val + 512)

/-- The carried minimum after point `t`, at entry `p`. -/
def minAfter (c : Dev nD) (t : Fin cfg0.N) (p : Fin 512) : Ideal .f32 :=
  minUpTo posInf (neg (qA m c) (cB m c) (iSq m c) (cSq m c) (lab m c) (row (ti t) p)) (512 * (tj t).val + 512)

/-- Folding point `t`'s tile into a column that holds the running maximum before the tile's columns. -/
theorem fold_max (c : Dev nD) (t : Fin cfg0.N) (xs0 : Vec Ideal S512x1 .f32) (p : Fin 512)
    (hprev : xs0 (ix2 p 0) = maxUpTo negInf (pos (qA m c) (cB m c) (iSq m c) (cSq m c) (lab m c) (row (ti t) p)) (512 * (tj t).val)) :
    k0_pay1 (F := Ideal) (k0_pay7 (F := Ideal) (iblk m c 0 t) (iblk m c 1 t) (iblk m c 2 t) (iblk m c 3 t) (iblk m c 4 t) (iblk m c 5 t)) xs0 (ix2 p 0) = maxAfter m c t p :=
  step_max (isTile m c t) xs0 p hprev

/-- Folding point `t`'s tile into a column that holds the running minimum before the tile's columns. -/
theorem fold_min (c : Dev nD) (t : Fin cfg0.N) (xs1 : Vec Ideal S512x1 .f32) (p : Fin 512)
    (hprev : xs1 (ix2 p 0) = minUpTo posInf (neg (qA m c) (cB m c) (iSq m c) (cSq m c) (lab m c) (row (ti t) p)) (512 * (tj t).val)) :
    k0_pay2 (F := Ideal) (k0_pay8 (F := Ideal) (iblk m c 0 t) (iblk m c 1 t) (iblk m c 2 t) (iblk m c 3 t) (iblk m c 4 t) (iblk m c 5 t)) xs1 (ix2 p 0) = minAfter m c t p :=
  step_min (isTile m c t) xs1 p hprev

/-- At the first tile of a row the seed column is the running maximum over no column. -/
theorem seed_max (c : Dev nD) (t : Fin cfg0.N) (h0 : t.val % 16 = 0) (p : Fin 512) :
    (k0_pay3 (F := Ideal)) (ix2 p 0) = maxUpTo negInf (pos (qA m c) (cB m c) (iSq m c) (cSq m c) (lab m c) (row (ti t) p)) (512 * (tj t).val) := by
  rw [tj_val, h0, Nat.mul_zero, maxUpTo_zero]
  exact Tile.pay3_apply _

/-- At the first tile of a row the seed column is the running minimum over no column. -/
theorem seed_min (c : Dev nD) (t : Fin cfg0.N) (h0 : t.val % 16 = 0) (p : Fin 512) :
    (k0_pay4 (F := Ideal)) (ix2 p 0) = minUpTo posInf (neg (qA m c) (cB m c) (iSq m c) (cSq m c) (lab m c) (row (ti t) p)) (512 * (tj t).val) := by
  rw [tj_val, h0, Nat.mul_zero, minUpTo_zero]
  exact Tile.pay4_apply _

/-- A point that is not the first tile of its row continues the point before: same row block, next column block. -/
theorem maxAfter_prev (c : Dev nD) (n : ℕ) (h : n + 1 < cfg0.N) (h0 : ¬(n + 1) % 16 = 0) (p : Fin 512) :
    maxAfter m c ⟨n, Nat.lt_of_succ_lt h⟩ p
      = maxUpTo negInf (pos (qA m c) (cB m c) (iSq m c) (cSq m c) (lab m c) (row (ti (⟨n + 1, h⟩ : Fin cfg0.N)) p)) (512 * (tj (⟨n + 1, h⟩ : Fin cfg0.N)).val) := by
  unfold maxAfter
  have e1 : ti (⟨n, Nat.lt_of_succ_lt h⟩ : Fin cfg0.N) = ti (⟨n + 1, h⟩ : Fin cfg0.N) := Fin.ext (by show n / 16 = (n + 1) / 16; omega)
  have e2 : 512 * (tj (⟨n, Nat.lt_of_succ_lt h⟩ : Fin cfg0.N)).val + 512 = 512 * (tj (⟨n + 1, h⟩ : Fin cfg0.N)).val := by
    show 512 * (n % 16) + 512 = 512 * ((n + 1) % 16); omega
  rw [e1, e2]

theorem minAfter_prev (c : Dev nD) (n : ℕ) (h : n + 1 < cfg0.N) (h0 : ¬(n + 1) % 16 = 0) (p : Fin 512) :
    minAfter m c ⟨n, Nat.lt_of_succ_lt h⟩ p
      = minUpTo posInf (neg (qA m c) (cB m c) (iSq m c) (cSq m c) (lab m c) (row (ti (⟨n + 1, h⟩ : Fin cfg0.N)) p)) (512 * (tj (⟨n + 1, h⟩ : Fin cfg0.N)).val) := by
  unfold minAfter
  have e1 : ti (⟨n, Nat.lt_of_succ_lt h⟩ : Fin cfg0.N) = ti (⟨n + 1, h⟩ : Fin cfg0.N) := Fin.ext (by show n / 16 = (n + 1) / 16; omega)
  have e2 : 512 * (tj (⟨n, Nat.lt_of_succ_lt h⟩ : Fin cfg0.N)).val + 512 = 512 * (tj (⟨n + 1, h⟩ : Fin cfg0.N)).val := by
    show 512 * (n % 16) + 512 = 512 * ((n + 1) % 16); omega
  rw [e1, e2]

/-- The first tile of a row: both carried columns start from their seeds. -/
theorem at_first (c : Dev nD) (t : Fin cfg0.N) (h0 : t.val % 16 = 0) (h1 : ¬t.val % 16 = 15) (p : Fin 512) :
    (outsAt0 m c t.val t.isLt).2.2.1 (ix2 p 0) = maxAfter m c t p
    ∧ (outsAt0 m c t.val t.isLt).2.2.2 (ix2 p 0) = minAfter m c t p := by
  rw [outsAt0_A m c t h0 h1]
  dsimp only
  have e1 := congrFun (Pieces.sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun hh => h1 ((hcond0_1 t).mp hh)) (iblk m c 0 t) (iblk m c 1 t) (iblk m c 2 t) (iblk m c 3 t) (iblk m c 4 t) (iblk m c 5 t)) (ix2 p 0)
  have e2 := fold_max m c t (k0_pay3 (F := Ideal)) p (seed_max m c t h0 p)
  have e3 := congrFun (Pieces.sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun hh => h1 ((hcond0_1 t).mp hh)) (iblk m c 0 t) (iblk m c 1 t) (iblk m c 2 t) (iblk m c 3 t) (iblk m c 4 t) (iblk m c 5 t)) (ix2 p 0)
  have e4 := fold_min m c t (k0_pay4 (F := Ideal)) p (seed_min m c t h0 p)
  exact ⟨e1.trans e2, e3.trans e4⟩

/-- A middle tile of a row: both carried columns continue from what the point before left. -/
theorem at_middle (c : Dev nD) (t : Fin cfg0.N) (h0 : ¬t.val % 16 = 0) (h1 : ¬t.val % 16 = 15) (p : Fin 512)
    (hpmax : (outsAt0 m c (t.val - 1) (Nat.lt_of_le_of_lt (Nat.sub_le _ _) t.isLt)).2.2.1 (ix2 p 0)
      = maxUpTo negInf (pos (qA m c) (cB m c) (iSq m c) (cSq m c) (lab m c) (row (ti t) p)) (512 * (tj t).val))
    (hpmin : (outsAt0 m c (t.val - 1) (Nat.lt_of_le_of_lt (Nat.sub_le _ _) t.isLt)).2.2.2 (ix2 p 0)
      = minUpTo posInf (neg (qA m c) (cB m c) (iSq m c) (cSq m c) (lab m c) (row (ti t) p)) (512 * (tj t).val)) :
    (outsAt0 m c t.val t.isLt).2.2.1 (ix2 p 0) = maxAfter m c t p
    ∧ (outsAt0 m c t.val t.isLt).2.2.2 (ix2 p 0) = minAfter m c t p := by
  rw [outsAt0_B m c t h0 h1]
  dsimp only
  exact ⟨(congrFun (Pieces.sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hh => h0 ((hcond0_0 t).mp hh)) (fun hh => h1 ((hcond0_1 t).mp hh)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans
      (fold_max m c t (outsAt0 m c (t.val - 1) (Nat.lt_of_le_of_lt (Nat.sub_le _ _) t.isLt)).2.2.1 p hpmax),
    (congrFun (Pieces.sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hh => h0 ((hcond0_0 t).mp hh)) (fun hh => h1 ((hcond0_1 t).mp hh)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans
      (fold_min m c t (outsAt0 m c (t.val - 1) (Nat.lt_of_le_of_lt (Nat.sub_le _ _) t.isLt)).2.2.2 p hpmin)⟩

/-- The last tile of a row: the carried columns continue, and the two outputs receive them. -/
theorem at_last (c : Dev nD) (t : Fin cfg0.N) (h0 : ¬t.val % 16 = 0) (h1 : t.val % 16 = 15) (p : Fin 512)
    (hpmax : (outsAt0 m c (t.val - 1) (Nat.lt_of_le_of_lt (Nat.sub_le _ _) t.isLt)).2.2.1 (ix2 p 0)
      = maxUpTo negInf (pos (qA m c) (cB m c) (iSq m c) (cSq m c) (lab m c) (row (ti t) p)) (512 * (tj t).val))
    (hpmin : (outsAt0 m c (t.val - 1) (Nat.lt_of_le_of_lt (Nat.sub_le _ _) t.isLt)).2.2.2 (ix2 p 0)
      = minUpTo posInf (neg (qA m c) (cB m c) (iSq m c) (cSq m c) (lab m c) (row (ti t) p)) (512 * (tj t).val)) :
    ((outsAt0 m c t.val t.isLt).2.2.1 (ix2 p 0) = maxAfter m c t p
      ∧ (outsAt0 m c t.val t.isLt).2.2.2 (ix2 p 0) = minAfter m c t p)
    ∧ (outsAt0 m c t.val t.isLt).1 (ix2 p 0) = maxAfter m c t p
    ∧ (outsAt0 m c t.val t.isLt).2.1 (ix2 p 0) = minAfter m c t p := by
  rw [outsAt0_C m c t h0 h1]
  dsimp only
  exact ⟨⟨(congrFun (Pieces.sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans
        (fold_max m c t (outsAt0 m c (t.val - 1) (Nat.lt_of_le_of_lt (Nat.sub_le _ _) t.isLt)).2.2.1 p hpmax),
      (congrFun (Pieces.sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans
        (fold_min m c t (outsAt0 m c (t.val - 1) (Nat.lt_of_le_of_lt (Nat.sub_le _ _) t.isLt)).2.2.2 p hpmin)⟩,
    (congrFun (Pieces.out_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans
      (fold_max m c t (outsAt0 m c (t.val - 1) (Nat.lt_of_le_of_lt (Nat.sub_le _ _) t.isLt)).2.2.1 p hpmax),
    (congrFun (Pieces.out_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans
      (fold_min m c t (outsAt0 m c (t.val - 1) (Nat.lt_of_le_of_lt (Nat.sub_le _ _) t.isLt)).2.2.2 p hpmin)⟩

/-- THE INVARIANT: after every point the carried columns hold the running maximum / minimum, and at a row's last tile the
    two outputs' staging buffers hold the same. -/
theorem carried (c : Dev nD) : ∀ (n : ℕ) (h : n < cfg0.N) (p : Fin 512),
    (outsAt0 m c n h).2.2.1 (ix2 p 0) = maxAfter m c ⟨n, h⟩ p
    ∧ (outsAt0 m c n h).2.2.2 (ix2 p 0) = minAfter m c ⟨n, h⟩ p
    ∧ (n % 16 = 15 → (outsAt0 m c n h).1 (ix2 p 0) = maxAfter m c ⟨n, h⟩ p
        ∧ (outsAt0 m c n h).2.1 (ix2 p 0) = minAfter m c ⟨n, h⟩ p) := by
  intro n
  induction n with
  | zero =>
    intro h p
    have h1 : ¬(0 : ℕ) % 16 = 15 := by decide
    obtain ⟨a, b⟩ := at_first m c ⟨0, h⟩ rfl h1 p
    exact ⟨a, b, fun h15 => absurd h15 h1⟩
  | succ n ih =>
    intro h p
    have hN : n + 1 < 256 := lt_of_lt_of_eq h (show cfg0.N = 256 from N_0)
    obtain ⟨ihmax, ihmin, -⟩ := ih (Nat.lt_of_succ_lt h) p
    by_cases h0 : (n + 1) % 16 = 0
    · have h1 : ¬(n + 1) % 16 = 15 := by omega
      obtain ⟨a, b⟩ := at_first m c (⟨n + 1, h⟩ : Fin cfg0.N) h0 h1 p
      exact ⟨a, b, fun h15 => absurd h15 h1⟩
    · have hpmax := ihmax.trans (maxAfter_prev m c n h h0 p)
      have hpmin := ihmin.trans (minAfter_prev m c n h h0 p)
      by_cases h1 : (n + 1) % 16 = 15
      · obtain ⟨⟨a, b⟩, d, e⟩ := at_last m c (⟨n + 1, h⟩ : Fin cfg0.N) h0 h1 p hpmax hpmin
        exact ⟨a, b, fun _ => ⟨d, e⟩⟩
      · obtain ⟨a, b⟩ := at_middle m c (⟨n + 1, h⟩ : Fin cfg0.N) h0 h1 p hpmax hpmin
        exact ⟨a, b, fun h15 => absurd h15 h1⟩

end Cert.KernelIdeal.Inv

end
-- ==== Proof.KernelFinal.lean ====
/-
  The two output arrays after the run, and the two scalar results.

  Output 0 is written back once per row block, by the block's last tile, with the finished running maxima — the
  hardest positives of the block's 512 rows; these 16 blocks tile the 8192 × 1 array. Likewise output 1 and the
  hardest negatives. The host operations after the region reshape both to vectors and take the margin loss and the
  precision of the two: the specification's two tails.
-/
import proofs.«120518_j15298673508622_1_alg».proof.Proof.KernelInv
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx Cert.KernelIdeal.Step Cert.KernelIdeal.Blocks
open Cert.KernelIdeal.Inv Cert.Spec Cert.FoldLaw

variable (m : (ℓ : Loc nD τ sig) → Buf (Elt Ideal) ℓ) (ρ : Dev nD → PrngReg)

/-- The hardest positives, as the 8192 × 1 column the kernel's first output is. -/
def apCol (c : Dev nD) : S8192x1.Idx → Ideal .f32 :=
  fun i => hardPos (qA m c) (cB m c) (iSq m c) (cSq m c) (lab m c) (ix1 (⟨(i 0).val, (i 0).isLt⟩ : Fin 8192))

/-- The hardest negatives, as the 8192 × 1 column the kernel's second output is. -/
def anCol (c : Dev nD) : S8192x1.Idx → Ideal .f32 :=
  fun i => hardNeg (qA m c) (cB m c) (iSq m c) (cSq m c) (lab m c) (ix1 (⟨(i 0).val, (i 0).isLt⟩ : Fin 8192))

/-- What a row's last tile writes back to output 0 is that row block of the mined column. -/
theorem flushed6_eq (c : Dev nD) (t : Fin cfg0.N) (hf : (cfg0.win 6).flush t = true) :
    (dats m 0 c).flushed 6 t = ((cfg0.win 6).blk t).view.read (Elt Ideal) (apCol m c) := by
  have h15 : t.val % 16 = 15 := (flush0_6 t).mp hf
  obtain ⟨-, -, -, -, -, -, -, -, -, -, -, -, e0, e1, -⟩ := idx_facts t
  show (cfg0.win 6).cut (grid0.coords t) ((dats m 0 c).after 6 t) = _
  rw [after0_6]
  refine funext fun (j : S512x1.Idx) => ?_
  obtain ⟨p, z, rfl⟩ : ∃ (p : Fin 512) (z : Fin 1), j = ix2 p z := ⟨j 0, j 1, eq_ix2 j⟩
  obtain rfl : z = 0 := Subsingleton.elim _ _
  show (outsAt0 m c t.val t.isLt).1 (ix2 p 0) = apCol m c (((cfg0.win 6).blk t).view.emb (ix2 p 0))
  have hc : (outsAt0 m c t.val t.isLt).1 (ix2 p 0) = maxAfter m c t p := ((carried m c t.val t.isLt p).2.2 h15).1
  rw [hc]
  have hfull : 512 * (tj t).val + 512 = 8192 := by rw [tj_val, h15]
  unfold maxAfter
  rw [hfull, maxUpTo_full]
  show hardPos (qA m c) (cB m c) (iSq m c) (cSq m c) (lab m c) (ix1 (row (ti t) p)) = apCol m c (((cfg0.win 6).blk t).view.emb (ix2 p 0))
  unfold apCol
  refine congrArg (hardPos (qA m c) (cB m c) (iSq m c) (cSq m c) (lab m c)) (congrArg (ix1 (n := 8192)) (Fin.ext ?_))
  show 512 * (t.val / 16) + p.val = win0_6.index t (0 : Fin 2) * 512 + 1 * p.val
  rw [e0]; omega

/-- An index of output 0 is in point `t`'s block iff each coordinate is in the block's range. -/
theorem mem_blk6 (t : Fin cfg0.N) (i : S8192x1.Idx) :
    i ∈ ((cfg0.win 6).blk t).view.set ↔ ∀ a : Fin 2, win0_6.index t a * S512x1.size a ≤ (i a).val
      ∧ (i a).val < win0_6.index t a * S512x1.size a + S512x1.size a := by
  show i ∈ ((View.whole main_v15_0).slice (win0_6.rect t)).set ↔ _
  rw [View.set_slice_whole, Rect.mem_set_unit]
  exact Iff.rfl

/-- Every row of output 0 is written back by the last tile of its row block. -/
theorem cover6 (i : S8192x1.Idx) :
    ∃ t : Fin cfg0.N, (cfg0.win 6).flush t = true ∧ i ∈ ((cfg0.win 6).blk t).view.set := by
  have hi0 : (i 0).val < 8192 := (i 0).isLt
  have hi1 : (i 1).val < 1 := (i 1).isLt
  obtain ⟨t, ht⟩ : ∃ t : Fin cfg0.N, t.val = 16 * ((i 0).val / 512) + 15 :=
    ⟨⟨16 * ((i 0).val / 512) + 15, by rw [show cfg0.N = 256 from N_0]; omega⟩, rfl⟩
  obtain ⟨-, -, -, -, -, -, -, -, -, -, -, -, e0, e1, -⟩ := idx_facts t
  refine ⟨t, (flush0_6 t).mpr (by rw [ht]; omega), ?_⟩
  rw [mem_blk6]
  intro a
  match a with
  | ⟨0, _⟩ =>
    show win0_6.index t (0 : Fin 2) * 512 ≤ (i 0).val ∧ (i 0).val < win0_6.index t (0 : Fin 2) * 512 + 512
    rw [e0, ht]; omega
  | ⟨1, _⟩ =>
    show win0_6.index t (1 : Fin 2) * 1 ≤ (i 1).val ∧ (i 1).val < win0_6.index t (1 : Fin 2) * 1 + 1
    rw [e1]; omega

/-- Output 0 ends holding the mined column. -/
theorem final6 (c : Dev nD) : (dats m 0 c).arrAt 6 cfg0.N = apCol m c :=
  (dats m 0 c).arrAt_eq_of_cover 6 (apCol m c) (flushed6_eq m c) cover6

/-- Read as a vector of 8192 the column is the specification's. -/
theorem apCol_vec (c : Dev nD) :
    shapeCast S8192 (apCol m c) shapeCasts_S8192x1_S8192 = hardPos (qA m c) (cB m c) (iSq m c) (cSq m c) (lab m c) := by
  funext i
  obtain ⟨r, rfl⟩ : ∃ r : Fin 8192, i = ix1 r := ⟨i 0, eq_ix1 i⟩
  refine (shapeCast_apply _ shapeCasts_S8192x1_S8192 (ix1 r) (ix2 r 0) (by
    rw [Shape.rowMajor_val_two, Shape.rowMajor_val_one]; show r.val * 1 + 0 = r.val; omega)).trans ?_
  rfl

/-- What a row's last tile writes back to output 1 is that row block of the mined column. -/
theorem flushed7_eq (c : Dev nD) (t : Fin cfg0.N) (hf : (cfg0.win 7).flush t = true) :
    (dats m 0 c).flushed 7 t = ((cfg0.win 7).blk t).view.read (Elt Ideal) (anCol m c) := by
  have h15 : t.val % 16 = 15 := (flush0_7 t).mp hf
  obtain ⟨-, -, -, -, -, -, -, -, -, -, -, -, -, -, e0, e1⟩ := idx_facts t
  show (cfg0.win 7).cut (grid0.coords t) ((dats m 0 c).after 7 t) = _
  rw [after0_7]
  refine funext fun (j : S512x1.Idx) => ?_
  obtain ⟨p, z, rfl⟩ : ∃ (p : Fin 512) (z : Fin 1), j = ix2 p z := ⟨j 0, j 1, eq_ix2 j⟩
  obtain rfl : z = 0 := Subsingleton.elim _ _
  show (outsAt0 m c t.val t.isLt).2.1 (ix2 p 0) = anCol m c (((cfg0.win 7).blk t).view.emb (ix2 p 0))
  have hc : (outsAt0 m c t.val t.isLt).2.1 (ix2 p 0) = minAfter m c t p := ((carried m c t.val t.isLt p).2.2 h15).2
  rw [hc]
  have hfull : 512 * (tj t).val + 512 = 8192 := by rw [tj_val, h15]
  unfold minAfter
  rw [hfull, minUpTo_full]
  show hardNeg (qA m c) (cB m c) (iSq m c) (cSq m c) (lab m c) (ix1 (row (ti t) p)) = anCol m c (((cfg0.win 7).blk t).view.emb (ix2 p 0))
  unfold anCol
  refine congrArg (hardNeg (qA m c) (cB m c) (iSq m c) (cSq m c) (lab m c)) (congrArg (ix1 (n := 8192)) (Fin.ext ?_))
  show 512 * (t.val / 16) + p.val = win0_7.index t (0 : Fin 2) * 512 + 1 * p.val
  rw [e0]; omega

/-- An index of output 1 is in point `t`'s block iff each coordinate is in the block's range. -/
theorem mem_blk7 (t : Fin cfg0.N) (i : S8192x1.Idx) :
    i ∈ ((cfg0.win 7).blk t).view.set ↔ ∀ a : Fin 2, win0_7.index t a * S512x1.size a ≤ (i a).val
      ∧ (i a).val < win0_7.index t a * S512x1.size a + S512x1.size a := by
  show i ∈ ((View.whole main_v15_1).slice (win0_7.rect t)).set ↔ _
  rw [View.set_slice_whole, Rect.mem_set_unit]
  exact Iff.rfl

/-- Every row of output 1 is written back by the last tile of its row block. -/
theorem cover7 (i : S8192x1.Idx) :
    ∃ t : Fin cfg0.N, (cfg0.win 7).flush t = true ∧ i ∈ ((cfg0.win 7).blk t).view.set := by
  have hi0 : (i 0).val < 8192 := (i 0).isLt
  have hi1 : (i 1).val < 1 := (i 1).isLt
  obtain ⟨t, ht⟩ : ∃ t : Fin cfg0.N, t.val = 16 * ((i 0).val / 512) + 15 :=
    ⟨⟨16 * ((i 0).val / 512) + 15, by rw [show cfg0.N = 256 from N_0]; omega⟩, rfl⟩
  obtain ⟨-, -, -, -, -, -, -, -, -, -, -, -, -, -, e0, e1⟩ := idx_facts t
  refine ⟨t, (flush0_7 t).mpr (by rw [ht]; omega), ?_⟩
  rw [mem_blk7]
  intro a
  match a with
  | ⟨0, _⟩ =>
    show win0_7.index t (0 : Fin 2) * 512 ≤ (i 0).val ∧ (i 0).val < win0_7.index t (0 : Fin 2) * 512 + 512
    rw [e0, ht]; omega
  | ⟨1, _⟩ =>
    show win0_7.index t (1 : Fin 2) * 1 ≤ (i 1).val ∧ (i 1).val < win0_7.index t (1 : Fin 2) * 1 + 1
    rw [e1]; omega

/-- Output 1 ends holding the mined column. -/
theorem final7 (c : Dev nD) : (dats m 0 c).arrAt 7 cfg0.N = anCol m c :=
  (dats m 0 c).arrAt_eq_of_cover 7 (anCol m c) (flushed7_eq m c) cover7

/-- Read as a vector of 8192 the column is the specification's. -/
theorem anCol_vec (c : Dev nD) :
    shapeCast S8192 (anCol m c) shapeCasts_S8192x1_S8192 = hardNeg (qA m c) (cB m c) (iSq m c) (cSq m c) (lab m c) := by
  funext i
  obtain ⟨r, rfl⟩ : ∃ r : Fin 8192, i = ix1 r := ⟨i 0, eq_ix1 i⟩
  refine (shapeCast_apply _ shapeCasts_S8192x1_S8192 (ix1 r) (ix2 r 0) (by
    rw [Shape.rowMajor_val_two, Shape.rowMajor_val_one]; show r.val * 1 + 0 = r.val; omega)).trans ?_
  rfl

/-! ## The host operations after the region -/

/-- The first output's array, as the operations after the region read it. -/
theorem arr6_eq (c : Dev nD) :
    Pipeline.withArrays (cfgs 0).spec c (V0 m c) (fun w => (dats m 0 c).arrAt w (cfgs 0).N) (Proc.devRef .tc main_v15_0)
      = apCol m c :=
  (Pipeline.withArrays_arr spec0 launch0.win.arr_inj c _ _ 6).trans (final6 m c)

/-- The second output's array, as the operations after the region read it. -/
theorem arr7_eq (c : Dev nD) :
    Pipeline.withArrays (cfgs 0).spec c (V0 m c) (fun w => (dats m 0 c).arrAt w (cfgs 0).N) (Proc.devRef .tc main_v15_1)
      = anCol m c :=
  (Pipeline.withArrays_arr spec0 launch0.win.arr_inj c _ _ 7).trans (final7 m c)

/-- The first result: the margin loss of the two mined columns. -/
theorem tail_loss (c : Dev nD) :
    Pipeline.afterTail₀ cfgs (dats m) 0 (V0 m) [hostOps1] c main_v24
      = lossTail (hardPos (qA m c) (cB m c) (iSq m c) (cSq m c) (lab m c)) (hardNeg (qA m c) (cB m c) (iSq m c) (cSq m c) (lab m c)) := by
  unfold Pipeline.afterTail₀
  show StableHlo.after hostOps1 _ (Proc.devRef .tc main_v24) = _
  after_results
  rw [arr6_eq, arr7_eq]
  show lossTail (shapeCast S8192 (apCol m c) shapeCasts_S8192x1_S8192) (shapeCast S8192 (anCol m c) shapeCasts_S8192x1_S8192) = _
  rw [apCol_vec, anCol_vec]

/-- The second result: the precision of the two mined columns. -/
theorem tail_prec (c : Dev nD) :
    Pipeline.afterTail₀ cfgs (dats m) 0 (V0 m) [hostOps1] c main_v28
      = precTail (hardPos (qA m c) (cB m c) (iSq m c) (cSq m c) (lab m c)) (hardNeg (qA m c) (cB m c) (iSq m c) (cSq m c) (lab m c)) := by
  unfold Pipeline.afterTail₀
  show StableHlo.after hostOps1 _ (Proc.devRef .tc main_v28) = _
  after_results
  rw [arr6_eq, arr7_eq]
  show precTail (shapeCast S8192 (apCol m c) shapeCasts_S8192x1_S8192) (shapeCast S8192 (anCol m c) shapeCasts_S8192x1_S8192) = _
  rw [apCol_vec, anCol_vec]

/-! ## The run, read -/

/-- Every weakly fair execution of the idealized kernel's program terminates with its two results at the
    specification's tails of the two mined columns, the arguments unchanged. -/
theorem run : θ_run defs (onTc (τ := τ) (main (F := Ideal))) ⟨m, fun _ => 0, ρ⟩ fun r => ∀ c : Dev nD,
      r.2.mem ((c : Thread nD τ).loc main_v24) = lossTail (hardPos (qA m c) (cB m c) (iSq m c) (cSq m c) (lab m c)) (hardNeg (qA m c) (cB m c) (iSq m c) (cSq m c) (lab m c))
      ∧ r.2.mem ((c : Thread nD τ).loc main_v28) = precTail (hardPos (qA m c) (cB m c) (iSq m c) (cSq m c) (lab m c)) (hardNeg (qA m c) (cB m c) (iSq m c) (cSq m c) (lab m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v24 (Pipeline.mem_restRefs_of main_v24 (by decide) (by decide))).trans (tail_loss m c),
      ((h c).2 main_v28 (Pipeline.mem_restRefs_of main_v28 (by decide) (by decide))).trans (tail_prec m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Final

end
-- ==== Proof.RefValue.lean ====
/-
  The reference program's stages are the specification's functions.

  With `cb` the gathered centre rows, `isq` the column of the query rows' squared norms and `csq` the centre rows'
  squared norms (three of the reference's own stages, kept opaque), the reference's same-class matrix is `Spec.pos`,
  its other-class matrix `Spec.neg` (its clamp is `max ε sq` where the specification writes `max sq ε`: the maximum
  commutes), its row-wise reduce-max / reduce-min are `Spec.hardPos` / `Spec.hardNeg`, and its two scalar results are
  `Spec.lossTail` / `Spec.precTail` of those two columns.
-/
import proofs.«120518_j15298673508622_1_alg».proof.Proof.ReadP
import proofs.«120518_j15298673508622_1_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx

variable (x0 : (⟨S8192x512, .f32⟩ : BufTy).Contents (Elt Ideal)) (x1 : (⟨S8192, .i32⟩ : BufTy).Contents (Elt Ideal))
  (x2 : (⟨S512x512, .f32⟩ : BufTy).Contents (Elt Ideal))

/-- The reference's clamped distance matrix, entry by entry: the broadcasts read the norm column at (r, 0) and the
    norm row at j, the contraction pairs query row r with centre row j, and the clamp's operands are swapped. -/
private theorem dist_eq (r j : Fin 8192) : val_main_v22 (F := Ideal) x0 x1 x2 (ix2 r j)
    = Cert.Spec.dist x0 (val_main_v6 (F := Ideal) x1 x2) (val_main_v9 (F := Ideal) x0) (val_main_v11 (F := Ideal) x1 x2) r j := by
  have e13 : idx_main_v13 (ix2 r j) = ix2 r (0 : Fin 1) :=
    funext fun a => Fin.ext (by match a with | ⟨0, _⟩ => rfl | ⟨1, _⟩ => rfl)
  have e14 : idx_main_v12 (idx_main_v14 (ix2 r j)) = ix1 j :=
    funext fun a => Fin.ext (by match a with | ⟨0, _⟩ => rfl)
  have el : ∀ k : Fin 512, lidx_main_v17 (ix2 r j) k = ix2 r k := fun k =>
    funext fun a => Fin.ext (by match a with | ⟨0, _⟩ => rfl | ⟨1, _⟩ => rfl)
  have er : ∀ k : Fin 512, idx_main_v16 (ridx_main_v17 (ix2 r j) k) = ix2 j k := fun k =>
    funext fun a => Fin.ext (by match a with | ⟨0, _⟩ => rfl | ⟨1, _⟩ => rfl)
  have es : ∑ k : Fin 512, x0 (lidx_main_v17 (ix2 r j) k) * val_main_v16 (F := Ideal) x1 x2 (ridx_main_v17 (ix2 r j) k)
      = ∑ k : Fin 512, x0 (ix2 r k) * val_main_v6 (F := Ideal) x1 x2 (ix2 j k) :=
    Finset.sum_congr rfl fun k _ => by rw [val_main_v16_apply, el k, er k]
  rw [val_main_v22_apply, val_main_v21_apply, val_main_call0_v1_apply, val_main_call0_v0_apply, val_main_cst_3_apply,
    val_main_v20_apply, val_main_v15_apply, val_main_v13_apply, val_main_v14_apply, val_main_v12_apply,
    val_main_v19_apply, val_main_v18_apply, val_main_cst_2_apply, val_main_v17_apply, e13, e14, es]
  exact congrArg Ideal.sqrt (max_comm _ _)

/-- The reference's label mask at (r, j) compares the labels of rows r and j. -/
private theorem mask_eq (r j : Fin 8192) :
    val_main_v27 (F := Ideal) x1 (ix2 r j) = IntOp.cmpi .eq (x1 (ix1 r)) (x1 (ix1 j)) := by
  have e25 : idx_main_v23 (idx_main_v25 (ix2 r j)) = ix1 r :=
    funext fun a => Fin.ext (by match a with | ⟨0, _⟩ => rfl)
  have e26 : idx_main_v24 (idx_main_v26 (ix2 r j)) = ix1 j :=
    funext fun a => Fin.ext (by match a with | ⟨0, _⟩ => rfl)
  rw [val_main_v27_apply, val_main_v25_apply, val_main_v23_apply, val_main_v26_apply, val_main_v24_apply, e25, e26]

/-- The reference's same-class matrix, entry by entry. -/
theorem pos_eq (r j : Fin 8192) : val_main_v28 (F := Ideal) x0 x1 x2 (ix2 r j)
    = Cert.Spec.pos x0 (val_main_v6 (F := Ideal) x1 x2) (val_main_v9 (F := Ideal) x0) (val_main_v11 (F := Ideal) x1 x2) x1 r j := by
  rw [val_main_v28_apply, mask_eq, dist_eq, val_main_call1_v1_apply, val_main_call1_v0_apply, val_main_cst_4_apply]
  rfl

/-- The reference's other-class matrix, entry by entry. -/
theorem neg_eq (r j : Fin 8192) : val_main_v30 (F := Ideal) x0 x1 x2 (ix2 r j)
    = Cert.Spec.neg x0 (val_main_v6 (F := Ideal) x1 x2) (val_main_v9 (F := Ideal) x0) (val_main_v11 (F := Ideal) x1 x2) x1 r j := by
  rw [val_main_v30_apply, mask_eq, dist_eq, val_main_call2_v1_apply, val_main_call2_v0_apply, val_main_cst_6_apply]
  rfl

/-- A reduction of an 8192 × 8192 matrix along its second axis with a commutative, associative operation is, at row r,
    the fold of the operation from the seed over the row's entries. -/
private theorem reduce_row (f : Ideal .f32 → Ideal .f32 → Ideal .f32) [Std.Commutative f] [Std.Associative f]
    (X : S8192x8192.Idx → Ideal .f32) (init : S_.Idx → Ideal .f32) (r : Fin 8192) :
    Host.reduce f X init reducesTo_S8192x8192_S8192_d1 h_S_ (ix1 r)
      = (Finset.univ : Finset (Fin 8192)).fold f (init (Shape.Idx.first h_S_)) (fun j => X (ix2 r j)) := by
  refine (Host.reduce_eq_fold_single f X init reducesTo_S8192x8192_S8192_d1 (by decide) h_S_ (ix1 r)).trans ?_
  refine Finset.fold_congr fun k _ => ?_
  exact congrArg X (funext fun a => Fin.ext (by match a with | ⟨0, _⟩ => rfl | ⟨1, _⟩ => rfl))

/-- The reference's hardest positives: the row-wise maximum of the same-class matrix from the seed −∞. -/
theorem hardPos_eq : val_main_v29 (F := Ideal) x0 x1 x2
    = Cert.Spec.hardPos x0 (val_main_v6 (F := Ideal) x1 x2) (val_main_v9 (F := Ideal) x0) (val_main_v11 (F := Ideal) x1 x2) x1 := by
  funext i
  obtain ⟨r, rfl⟩ : ∃ r : Fin 8192, i = ix1 r := ⟨i 0, eq_ix1 i⟩
  unfold val_main_v29
  refine (reduce_row FloatOps.maximumf _ _ r).trans ?_
  unfold Cert.Spec.hardPos
  refine Finset.fold_congr fun k _ => ?_
  exact pos_eq x0 x1 x2 r k

/-- The reference's hardest negatives: the row-wise minimum of the other-class matrix from the seed +∞. -/
theorem hardNeg_eq : val_main_v31 (F := Ideal) x0 x1 x2
    = Cert.Spec.hardNeg x0 (val_main_v6 (F := Ideal) x1 x2) (val_main_v9 (F := Ideal) x0) (val_main_v11 (F := Ideal) x1 x2) x1 := by
  funext i
  obtain ⟨r, rfl⟩ : ∃ r : Fin 8192, i = ix1 r := ⟨i 0, eq_ix1 i⟩
  unfold val_main_v31
  refine (reduce_row FloatOps.minimumf _ _ r).trans ?_
  unfold Cert.Spec.hardNeg
  refine Finset.fold_congr fun k _ => ?_
  exact neg_eq x0 x1 x2 r k

/-- The reference's first result is the margin loss of its two mined columns. -/
theorem loss_eq : val_main_v38 (F := Ideal) x0 x1 x2
    = Cert.Spec.lossTail (val_main_v29 (F := Ideal) x0 x1 x2) (val_main_v31 (F := Ideal) x0 x1 x2) := by
  unfold val_main_v38 val_main_v37 val_main_v36 val_main_v35 val_main_v34 val_main_v33 val_main_v32
  generalize val_main_v29 (F := Ideal) x0 x1 x2 = ap
  generalize val_main_v31 (F := Ideal) x0 x1 x2 = an
  rfl

/-- The reference's second result is the precision of its two mined columns. -/
theorem prec_eq : val_main_v42 (F := Ideal) x0 x1 x2
    = Cert.Spec.precTail (val_main_v29 (F := Ideal) x0 x1 x2) (val_main_v31 (F := Ideal) x0 x1 x2) := by
  unfold val_main_v42 val_main_v41 val_main_v40 val_main_v39
  generalize val_main_v29 (F := Ideal) x0 x1 x2 = ap
  generalize val_main_v31 (F := Ideal) x0 x1 x2 = an
  rfl

end Cert.ReferenceIdeal.RefValue

end
-- ==== Proof.Bridge.lean ====
/-
  The arrays the kernel's program hands its region are the reference's own first stages.

  Both programs start with the same host operations: the gather of the centre rows by the (wrapped) labels, and the
  two rows-of-squares sums. So the gathered centre rows, the queries' squared norms (as a column) and the centre rows'
  squared norms that the region finds are the reference's stages of the same names, term for term; the queries and
  the labels are the arguments themselves.
-/
import proofs.«120518_j15298673508622_1_alg».proof.Proof.KernelBlocks
import proofs.«120518_j15298673508622_1_alg».proof.Proof.ReadP
import Idealize.ShloMosaic.Lib.StableHlo.Run

set_option maxRecDepth 16384

noncomputable section

open Idealize.ShloMosaic Idealize.ShloMosaic.TcCoe Idealize.SL.Sem

namespace Cert.KernelIdeal.Bridge

open Cert.KernelIdeal Cert.KernelIdeal.Gen Cert.KernelIdeal.Blocks

variable (m : (ℓ : Loc nD τ sig) → Buf (Elt Ideal) ℓ)

/-- The queries are the first argument. -/
theorem qA_eq (c : Dev nD) : qA m c = m ((c : Thread nD τ).loc main_arg0) := V_main_arg0 m c

/-- The labels are the second argument. -/
theorem lab_eq (c : Dev nD) : lab m c = m ((c : Thread nD τ).loc main_arg1) := V_main_arg1 m c

/-- The gathered centre rows are the reference's. -/
theorem cB_eq (c : Dev nD) : cB m c = Cert.ReferenceIdeal.ReadP.val_main_v6 (F := Ideal)
    (m ((c : Thread nD τ).loc main_arg1)) (m ((c : Thread nD τ).loc main_arg2)) := by
  unfold cB
  show StableHlo.after hostOps0 (fun b => m (c, b)) (Proc.devRef .tc main_v6) = _
  after_results; rfl

/-- The queries' squared norms, as a column, are the reference's. -/
theorem iSq_eq (c : Dev nD) : iSq m c = Cert.ReferenceIdeal.ReadP.val_main_v9 (F := Ideal)
    (m ((c : Thread nD τ).loc main_arg0)) := by
  unfold iSq
  show StableHlo.after hostOps0 (fun b => m (c, b)) (Proc.devRef .tc main_v9) = _
  after_results; rfl

/-- The centre rows' squared norms are the reference's. -/
theorem cSq_eq (c : Dev nD) : cSq m c = Cert.ReferenceIdeal.ReadP.val_main_v11 (F := Ideal)
    (m ((c : Thread nD τ).loc main_arg1)) (m ((c : Thread nD τ).loc main_arg2)) := by
  unfold cSq
  show StableHlo.after hostOps0 (fun b => m (c, b)) (Proc.devRef .tc main_v11) = _
  after_results; rfl

end Cert.KernelIdeal.Bridge

end
-- ==== Proof.lean ====
/-
  The certificate: a fused pairwise-distance / hard-example-mining kernel against its reference.

  Both programs take query rows, class labels and a table of class centres, gather one centre row per label, and for
  every query row r mine, over all 8192 gathered centre rows j, the largest clamped distance among the rows of r's own
  class (seed −∞) and the smallest among the rows of the other classes (seed +∞); the two results are the mean margin
  loss max 0 (ap − an + 1) and the fraction of rows with an > ap. The distance is the expanded square
  sqrt (max (‖a‖² + ‖b‖² − 2·⟨a, b⟩) ε), the same literals on both sides.

  The reference reduces each row of the 8192 × 8192 matrices in one sweep. The kernel walks a 16 × 16 grid of
  512 × 512 tiles, keeps the running maximum and minimum of a row block in two carried columns — reset to the seeds at
  a row's first tile, folded with every tile's row-wise maximum / minimum, copied out at the row's last tile. Over the
  extended reals a maximum taken tile by tile from the seed is the maximum over the whole row, whatever the seed
  (`FoldLaw`); no other law is needed — in particular no finiteness of the inputs — beyond the commutation of one
  `max`. The three frames are the generated ones; the idealization rewrote nothing.
-/
import proofs.«120518_j15298673508622_1_alg».proof.Defs
import proofs.«120518_j15298673508622_1_alg».proof.Proof.Gen.Kernel
import proofs.«120518_j15298673508622_1_alg».proof.Proof.Gen.Kernel.Frame
import proofs.«120518_j15298673508622_1_alg».proof.Proof.Gen.KernelIdeal
import proofs.«120518_j15298673508622_1_alg».proof.Proof.Gen.KernelIdeal.Frame
import proofs.«120518_j15298673508622_1_alg».proof.Proof.Gen.ReferenceIdeal
import proofs.«120518_j15298673508622_1_alg».proof.Proof.Gen.Pre_finite_inputs
import proofs.«120518_j15298673508622_1_alg».proof.Proof.RefRun
import proofs.«120518_j15298673508622_1_alg».proof.Proof.KernelFinal
import proofs.«120518_j15298673508622_1_alg».proof.Proof.RefValue
import proofs.«120518_j15298673508622_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.HandRun.run m ρ)

/-- The idealization rewrote no operation. -/
theorem preserves : Cert.preserves_Kernel_KernelIdeal := trivial

/-- From memories that agree on the three arguments, the kernel's two results (the tails of the columns it mined tile by
    tile) and the reference's (the tails of the columns it reduced in one sweep) are the same extended reals: the arrays
    the kernel's region finds are the reference's own first stages, and both mined columns are the specification's. -/
theorem algebraic : Cert.algebraic_KernelIdeal_ReferenceIdeal := by
  intro m ρ m' ρ' _ hagree
  refine ⟨fun c => Cert.Spec.lossTail (Cert.Spec.hardPos (Cert.KernelIdeal.Blocks.qA m c) (Cert.KernelIdeal.Blocks.cB m c) (Cert.KernelIdeal.Blocks.iSq m c) (Cert.KernelIdeal.Blocks.cSq m c) (Cert.KernelIdeal.Blocks.lab m c)) (Cert.Spec.hardNeg (Cert.KernelIdeal.Blocks.qA m c) (Cert.KernelIdeal.Blocks.cB m c) (Cert.KernelIdeal.Blocks.iSq m c) (Cert.KernelIdeal.Blocks.cSq m c) (Cert.KernelIdeal.Blocks.lab m c)),
    fun c => Cert.Spec.precTail (Cert.Spec.hardPos (Cert.KernelIdeal.Blocks.qA m c) (Cert.KernelIdeal.Blocks.cB m c) (Cert.KernelIdeal.Blocks.iSq m c) (Cert.KernelIdeal.Blocks.cSq m c) (Cert.KernelIdeal.Blocks.lab m c)) (Cert.Spec.hardNeg (Cert.KernelIdeal.Blocks.qA m c) (Cert.KernelIdeal.Blocks.cB m c) (Cert.KernelIdeal.Blocks.iSq m c) (Cert.KernelIdeal.Blocks.cSq m c) (Cert.KernelIdeal.Blocks.lab m c)),
    Cert.KernelIdeal.Final.run m ρ, ?_⟩
  refine (θ_run Cert.ReferenceIdeal.defs _ _).mono (fun _ h c => ⟨(h c).1.trans ?_, (h c).2.1.trans ?_, (h c).2.2⟩)
    (Cert.ReferenceIdeal.HandRun.run m' ρ')
  · dsimp only
    rw [Cert.ReferenceIdeal.RefValue.loss_eq,
      Cert.ReferenceIdeal.RefValue.hardPos_eq, Cert.ReferenceIdeal.RefValue.hardNeg_eq,
      (hagree c).1, (hagree c).2.1, (hagree c).2.2,
      Cert.KernelIdeal.Bridge.qA_eq, Cert.KernelIdeal.Bridge.cB_eq, Cert.KernelIdeal.Bridge.iSq_eq,
      Cert.KernelIdeal.Bridge.cSq_eq, Cert.KernelIdeal.Bridge.lab_eq]
  · dsimp only
    rw [Cert.ReferenceIdeal.RefValue.prec_eq,
      Cert.ReferenceIdeal.RefValue.hardPos_eq, Cert.ReferenceIdeal.RefValue.hardNeg_eq,
      (hagree c).1, (hagree c).2.1, (hagree c).2.2,
      Cert.KernelIdeal.Bridge.qA_eq, Cert.KernelIdeal.Bridge.cB_eq, Cert.KernelIdeal.Bridge.iSq_eq,
      Cert.KernelIdeal.Bridge.cSq_eq, Cert.KernelIdeal.Bridge.lab_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
